-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3x2 : Shape := ⟨3, ![4194304, 3, 2]⟩
abbrev S4194304x2x2 : Shape := ⟨3, ![4194304, 2, 2]⟩
abbrev S4194304 : Shape := ⟨1, ![4194304]⟩
abbrev S_ : Shape := ⟨0, ![]⟩

class Facts : Prop where
  bcast_S_S4194304x3x2 : S_.BroadcastsInDim S4194304x3x2 (![] : Fin 0 → Fin S4194304x3x2.rank)
  reducesTo_S4194304x3x2_S_d0_1_2 : S4194304x3x2.ReducesTo [0, 1, 2] S_
  h_S_ : 0 < S_.numel
  bcast_S_S4194304x2x2 : S_.BroadcastsInDim S4194304x2x2 (![] : Fin 0 → Fin S4194304x2x2.rank)
  reducesTo_S4194304x2x2_S_d0_1_2 : S4194304x2x2.ReducesTo [0, 1, 2] S_
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : FVec F S4194304x3x2 .f32) (main_arg1 : FVec F S4194304x2x2 .f32) (main_arg2 : FVec F S4194304 .f32) : IVec S_ 1 :=
  let main_v0 : FVec F S4194304x3x2 .f32 := Host.absf main_arg0
  let main_cst : FVec F S_ .f32 := constant S_ .f32 0x7F800000#32
  let main_v1 : FVec F S4194304x3x2 .f32 := broadcastInDim S4194304x3x2 ![] bcast_S_S4194304x3x2 main_cst
  let main_v2 : IVec S4194304x3x2 1 := cmpf .olt main_v0 main_v1
  let main_c : IVec S_ 1 := constantI S_ 1 1#1
  let main_v3 : IVec S_ 1 := (fun x v => Host.reduce IntOp.andi x v reducesTo_S4194304x3x2_S_d0_1_2 h_S_) main_v2 main_c
  let main_v4 : FVec F S4194304x2x2 .f32 := Host.absf main_arg1
  let main_cst_0 : FVec F S_ .f32 := constant S_ .f32 0x7F800000#32
  let main_v5 : FVec F S4194304x2x2 .f32 := broadcastInDim S4194304x2x2 ![] bcast_S_S4194304x2x2 main_cst_0
  let main_v6 : IVec S4194304x2x2 1 := cmpf .olt main_v4 main_v5
  let main_c_1 : IVec S_ 1 := constantI S_ 1 1#1
  let main_v7 : IVec S_ 1 := (fun x v => Host.reduce IntOp.andi x v reducesTo_S4194304x2x2_S_d0_1_2 h_S_) main_v6 main_c_1
  let main_v8 : IVec S_ 1 := andi main_v3 main_v7
  let main_v9 : FVec F S4194304 .f32 := Host.absf main_arg2
  let main_cst_2 : FVec F S_ .f32 := constant S_ .f32 0x7F800000#32
  let main_v10 : FVec F S4194304 .f32 := broadcastInDim S4194304 ![] bcast_S_S4194304 main_cst_2
  let main_v11 : IVec S4194304 1 := cmpf .olt main_v9 main_v10
  let main_c_3 : IVec S_ 1 := constantI S_ 1 1#1
  let main_v12 : IVec S_ 1 := (fun x v => Host.reduce IntOp.andi x v reducesTo_S4194304_S_d0 h_S_) main_v11 main_c_3
  let main_v13 : IVec S_ 1 := andi main_v8 main_v12
  main_v13
-- ==== Kernel.lean ====
abbrev S4194304x3x2 : Shape := ⟨3, ![4194304, 3, 2]⟩
abbrev S4194304x2x2 : Shape := ⟨3, ![4194304, 2, 2]⟩
abbrev S4194304 : Shape := ⟨1, ![4194304]⟩
abbrev S4194304x6 : Shape := ⟨2, ![4194304, 6]⟩
abbrev S4194304x4 : Shape := ⟨2, ![4194304, 4]⟩
abbrev S4194304x1 : Shape := ⟨2, ![4194304, 1]⟩
abbrev S4194304x11 : Shape := ⟨2, ![4194304, 11]⟩
abbrev S2x8x128 : Shape := ⟨3, ![2, 8, 128]⟩
abbrev S4096x11 : Shape := ⟨2, ![4096, 11]⟩
abbrev S1x8x128 : Shape := ⟨3, ![1, 8, 128]⟩
abbrev S4096x1 : Shape := ⟨2, ![4096, 1]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 12
  | .vmem => 4
  | .smem => 0
  | _ => 0

abbrev bufTy : (tb : Table) → Fin (tcTables nBuf tb) → BufTy
  | .hbm, ⟨0, _⟩ => ⟨S4194304x3x2, .f32⟩
  | .hbm, ⟨1, _⟩ => ⟨S4194304x2x2, .f32⟩
  | .hbm, ⟨2, _⟩ => ⟨S4194304, .f32⟩
  | .hbm, ⟨3, _⟩ => ⟨S4194304x6, .f32⟩
  | .hbm, ⟨4, _⟩ => ⟨S4194304x4, .f32⟩
  | .hbm, ⟨5, _⟩ => ⟨S4194304x1, .f32⟩
  | .hbm, ⟨6, _⟩ => ⟨S4194304x11, .f32⟩
  | .hbm, ⟨7, _⟩ => ⟨S2x8x128, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .local _ .vmem, ⟨0, _⟩ => ⟨S4096x11, .f32⟩
  | .local _ .vmem, ⟨1, _⟩ => ⟨S4096x11, .f32⟩
  | .local _ .vmem, ⟨2, _⟩ => ⟨S1x8x128, .f32⟩
  | .local _ .vmem, ⟨3, _⟩ => ⟨S1x8x128, .f32⟩
  | _, _ => ⟨S4194304x3x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 512], ![false, false]⟩

def cc0_transform_0 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S4194304x3x2_S4194304x6 : S4194304x3x2.ShapeCasts S4194304x6
  shapeCasts_S4194304x2x2_S4194304x4 : S4194304x2x2.ShapeCasts S4194304x4
  shapeCasts_S4194304_S4194304x1 : S4194304.ShapeCasts S4194304x1
  concatenates_S4194304x6_S4194304x4_S4194304x1_S4194304x11_d1 : Shape.Concatenates [S4194304x6, S4194304x4, S4194304x1] S4194304x11 1
  inb_S1x8x128_S1x8x128_0_0_0 : ∀ a, (![0, 0, 0] : Fin 3 → Nat) a + S1x8x128.size a ≤ S1x8x128.size a
  h_S1x8x128 : 0 < S1x8x128.numel
  inb_S4096x11_S4096x11_0_0 : ∀ a, (![0, 0] : Fin 2 → Nat) a + S4096x11.size a ≤ S4096x11.size a
  h_S4096x11 : 0 < S4096x11.numel
  shapeCasts_S4096x11_S4096x11 : S4096x11.ShapeCasts S4096x11
  slices_S4096x11_o0_0_S4096x1 : S4096x11.Slices ![0, 0] S4096x1
  slices_S4096x11_o0_1_S4096x1 : S4096x11.Slices ![0, 1] S4096x1
  slices_S4096x11_o0_2_S4096x1 : S4096x11.Slices ![0, 2] S4096x1
  slices_S4096x11_o0_3_S4096x1 : S4096x11.Slices ![0, 3] S4096x1
  slices_S4096x11_o0_4_S4096x1 : S4096x11.Slices ![0, 4] S4096x1
  slices_S4096x11_o0_5_S4096x1 : S4096x11.Slices ![0, 5] S4096x1
  slices_S4096x11_o0_6_S4096x1 : S4096x11.Slices ![0, 6] S4096x1
  slices_S4096x11_o0_7_S4096x1 : S4096x11.Slices ![0, 7] S4096x1
  slices_S4096x11_o0_8_S4096x1 : S4096x11.Slices ![0, 8] S4096x1
  slices_S4096x11_o0_9_S4096x1 : S4096x11.Slices ![0, 9] S4096x1
  slices_S4096x11_o0_10_S4096x1 : S4096x11.Slices ![0, 10] S4096x1
  reduces_S4096x1_S1 : S4096x1.Reduces [0] S1
  shapeCasts_S1_S1x1 : S1.ShapeCasts S1x1
  shapeCasts_S1x8x128_S1x8x128 : S1x8x128.ShapeCasts S1x8x128
  shapeCasts_S1x1_S1x1x1 : S1x1.ShapeCasts S1x1x1
  broadcasts_S1x1x1_S1x8x128 : S1x1x1.Broadcasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x11.size a ≤ S4194304x11.size a
  hwx0_0 : ∀ i : grid0.Coords, EltTy.bits .f32 = 32 ∨ (Rect.block (s := S4194304x11) S4096x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S2x8x128.size a
  hwx0_1 : ∀ i : grid0.Coords, EltTy.bits .f32 = 32 ∨ (Rect.block (s := S2x8x128) S1x8x128.size (cc0_transform_1 i) (hinb0_1 i)).WholeWords (EltTy.packing .f32)

variable [Facts₀]

abbrev win0_0 : Pipeline.Window sig grid0 :=
  Pipeline.Window.ofSpec (Memref.whole main_v3) S4096x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4194304x3x2 : Shape := ⟨3, ![4194304, 3, 2]⟩
abbrev S4194304x2x2 : Shape := ⟨3, ![4194304, 2, 2]⟩
abbrev S4194304 : Shape := ⟨1, ![4194304]⟩
abbrev S4194304x1x2 : Shape := ⟨3, ![4194304, 1, 2]⟩
abbrev S4194304x2 : Shape := ⟨2, ![4194304, 2]⟩
abbrev S4194304x2x1 : Shape := ⟨3, ![4194304, 2, 1]⟩
abbrev S_ : Shape := ⟨0, ![]⟩
abbrev S4194304x1x1 : Shape := ⟨3, ![4194304, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S4194304x3x2, .f32⟩
  | .hbm, ⟨1, _⟩ => ⟨S4194304x2x2, .f32⟩
  | .hbm, ⟨2, _⟩ => ⟨S4194304, .f32⟩
  | .hbm, ⟨3, _⟩ => ⟨S4194304x1x2, .f32⟩
  | .hbm, ⟨4, _⟩ => ⟨S4194304x2, .f32⟩
  | .hbm, ⟨5, _⟩ => ⟨S4194304x1x2, .f32⟩
  | .hbm, ⟨6, _⟩ => ⟨S4194304x2, .f32⟩
  | .hbm, ⟨7, _⟩ => ⟨S4194304x2, .f32⟩
  | .hbm, ⟨8, _⟩ => ⟨S4194304x1x2, .f32⟩
  | .hbm, ⟨9, _⟩ => ⟨S4194304x2, .f32⟩
  | .hbm, ⟨10, _⟩ => ⟨S4194304x2, .f32⟩
  | .hbm, ⟨11, _⟩ => ⟨S4194304x2x1, .f32⟩
  | .hbm, ⟨12, _⟩ => ⟨S4194304x2x1, .f32⟩
  | .hbm, ⟨13, _⟩ => ⟨S4194304x2x2, .f32⟩
  | .hbm, ⟨14, _⟩ => ⟨S4194304x2x2, .f32⟩
  | .hbm, ⟨15, _⟩ => ⟨S4194304x2x2, .f32⟩
  | .hbm, ⟨16, _⟩ => ⟨S_, .f32⟩
  | .hbm, ⟨17, _⟩ => ⟨S4194304, .f32⟩
  | .hbm, ⟨18, _⟩ => ⟨S4194304x1x1, .f32⟩
  | .hbm, ⟨19, _⟩ => ⟨S4194304, .f32⟩
  | .hbm, ⟨20, _⟩ => ⟨S4194304x1x1, .f32⟩
  | .hbm, ⟨21, _⟩ => ⟨S4194304, .f32⟩
  | .hbm, ⟨22, _⟩ => ⟨S4194304, .f32⟩
  | .hbm, ⟨23, _⟩ => ⟨S4194304x1x1, .f32⟩
  | .hbm, ⟨24, _⟩ => ⟨S4194304, .f32⟩
  | .hbm, ⟨25, _⟩ => ⟨S4194304x1x1, .f32⟩
  | .hbm, ⟨26, _⟩ => ⟨S4194304, .f32⟩
  | .hbm, ⟨27, _⟩ => ⟨S4194304, .f32⟩
  | .hbm, ⟨28, _⟩ => ⟨S4194304, .f32⟩
  | .hbm, ⟨29, _⟩ => ⟨S4194304, .f32⟩
  | .hbm, ⟨30, _⟩ => ⟨S4194304, .f32⟩
  | .hbm, ⟨31, _⟩ => ⟨S_, .f32⟩
  | .hbm, ⟨32, _⟩ => ⟨S4194304, .f32⟩
  | .hbm, ⟨33, _⟩ => ⟨S4194304, .f32⟩
  | .hbm, ⟨34, _⟩ => ⟨S_, .f32⟩
  | .hbm, ⟨35, _⟩ => ⟨S4194304, .f32⟩
  | .hbm, ⟨36, _⟩ => ⟨S4194304, .f32⟩
  | .hbm, ⟨37, _⟩ => ⟨S4194304, .f32⟩
  | .hbm, ⟨38, _⟩ => ⟨S_, .f32⟩
  | .hbm, ⟨39, _⟩ => ⟨S_, .f32⟩
  | _, _ => ⟨S4194304x3x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩

abbrev nD : Nat := 1
abbrev τ : Topo := Topo.v7x

variable {F : FTy → Type} [FloatOps F]

class Facts₀ : Prop where
  slices_S4194304x3x2_S4194304x1x2_0_0_0 : S4194304x3x2.Slices ![0, 0, 0] S4194304x1x2
  shapeCasts_S4194304x1x2_S4194304x2 : S4194304x1x2.ShapeCasts S4194304x2
  slices_S4194304x3x2_S4194304x1x2_0_1_0 : S4194304x3x2.Slices ![0, 1, 0] S4194304x1x2
  slices_S4194304x3x2_S4194304x1x2_0_2_0 : S4194304x3x2.Slices ![0, 2, 0] S4194304x1x2
  bcast_S4194304x2_S4194304x2x1_0_1 : S4194304x2.BroadcastsInDim S4194304x2x1 (![0, 1] : Fin 2 → Fin S4194304x2x1.rank)
  concatenates_S4194304x2x1_S4194304x2x1_S4194304x2x2_d2 : Shape.Concatenates [S4194304x2x1, S4194304x2x1] S4194304x2x2 2
  reducesTo_S4194304x2x2_S4194304_d1_2 : S4194304x2x2.ReducesTo [1, 2] S4194304
  h_S_ : 0 < S_.numel
  slices_S4194304x2x2_S4194304x1x1_0_0_0 : S4194304x2x2.Slices ![0, 0, 0] S4194304x1x1
  shapeCasts_S4194304x1x1_S4194304 : S4194304x1x1.ShapeCasts S4194304
  slices_S4194304x2x2_S4194304x1x1_0_1_1 : S4194304x2x2.Slices ![0, 1, 1] S4194304x1x1
  slices_S4194304x2x2_S4194304x1x1_0_0_1 : S4194304x2x2.Slices ![0, 0, 1] S4194304x1x1
  slices_S4194304x2x2_S4194304x1x1_0_1_0 : S4194304x2x2.Slices ![0, 1, 0] S4194304x1x1
  bcast_S_S4194304 : S_.BroadcastsInDim S4194304 (![] : Fin 0 → Fin S4194304.rank)
  reducesTo_S4194304_S_d0 : S4194304.ReducesTo [0] S_
  dot_S4194304x2x2_S4194304x2x2_S4194304x2x2_2_1_1_2_0_0_wf : DotDims.WF S4194304x2x2 S4194304x2x2 S4194304x2x2 [2] [1] [1] [2] [0] [0]

variable [Facts₀]

def dot_S4194304x2x2_S4194304x2x2_S4194304x2x2_2_1_1_2_0_0 : DotDims S4194304x2x2 S4194304x2x2 S4194304x2x2 where
  lhsContracting := [2]
  rhsContracting := [1]
  lhsNonContracting := [1]
  rhsNonContracting := [2]
  lhsBatch := [0]
  rhsBatch := [0]
  wf := dot_S4194304x2x2_S4194304x2x2_S4194304x2x2_2_1_1_2_0_0_wf

class Facts : Prop extends Facts₀ where

variable [Facts]
-- ==== Proof.FrameK.Around.lean ====
/-
  The program around its one region. @main is four host lines (three reshapes and the concatenation of their
  results into the [4194304, 11] table), the region over a 2 × 512 grid, and four host lines (the slice of one
  lane per half, its reshape, a zero, and the sum of the two halves). This module says what the region finds in
  every buffer (the launch memory carried through the first four lines), that the last four lines stay inside
  the buffers they may touch and write no window's array, that the three argument arrays are written by no line
  on either side, what a window's block at a grid point is, and at which grid points the body's one branch
  (the second grid coordinate is zero) is taken: the points that are multiples of 512.
-/
import proofs.«133909_j69681549410630_2_alg».proof.Defs
import proofs.«133909_j69681549410630_2_alg».proof.Proof.Gen.Kernel.Launch
import proofs.«133909_j69681549410630_2_alg».proof.Proof.Gen.Kernel.Skeleton
import proofs.«133909_j69681549410630_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the launch memory after the four lines before it. -/
abbrev V0 (c : Dev nD) : Valuation τ sig (Elt F) := StableHlo.after (List.flatten [hostOps0]) (fun b => m (c, b))
/-- The same, read at a TensorCore buffer. -/
abbrev V (c : Dev nD) (b : Ref sig .tc) : Buf (Elt F) ((c : Thread nD τ).loc b) := V0 m c (Proc.devRef .tc b)

/-- The lines before the region allocate nothing; -/
theorem before_fresh : (hostOps0 : List (HloOp τ sig (Elt F))).Forall fun op => op.fresh = ∅ := by
  simp only [List.Forall]; repeat' constructor
/-- nor do the lines after it. -/
theorem after_fresh : (hostOps1 : List (HloOp τ sig (Elt F))).Forall fun op => op.fresh = ∅ := by
  simp only [List.Forall]; repeat' constructor

/-- @main is the first four lines, the region, and the region's continuation by the last four lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The last four lines touch only the windows' arrays and the buffers that bypass the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop

/-- Each writes its own result buffer only, which is neither the table nor the region's result. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- None of the four host lines before the region writes argument 0: the region finds it as launched. -/
theorem entry_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- None of the four host lines after the region writes argument 0, and it is no window's array: it ends as launched. -/
theorem exit_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact entry_arg0 m c

/-- None of the four host lines before the region writes argument 1: the region finds it as launched. -/
theorem entry_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- None of the four host lines after the region writes argument 1, and it is no window's array: it ends as launched. -/
theorem exit_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact entry_arg1 m c

/-- None of the four host lines before the region writes argument 2: the region finds it as launched. -/
theorem entry_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- None of the four host lines after the region writes argument 2, and it is no window's array: it ends as launched. -/
theorem exit_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact entry_arg2 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The table's window is fetched at every point and its block never moves under the body, so its current staging
    buffer holds the block of the table at every point, for any proof data whose array is the region-entry table
    and whose body leaves the block in place. -/
theorem table_before_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run that ends with every buffer no window stages at what the last four lines leave of its region-entry
    contents ends with the three argument arrays as launched: no line on either side of the region writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c)⟩) h

/-! ## The body's branch -/

/-- The body's one branch: the second grid coordinate, as a 32-bit word, is zero. -/
abbrev isFirst (i : grid0.Coords) : Prop := (Scalar.cmpi .ne (Scalar.extui (Scalar.cmpi .eq (BitVec.ofNat 32 (i 1).val) 0#32)) 0#32) = 1#1

/-- Over the 1024 grid points, row-major in (half, step), that is: the point is a multiple of 512. -/
theorem isFirst_iff : ∀ t : Fin cfg0.N, isFirst (grid0.coords t) ↔ t.val % 512 = 0 :=
  (by decide +kernel : ∀ t : Fin grid0.N, isFirst (grid0.coords t) ↔ t.val % 512 = 0)

/-! ## The staging memrefs the pipeline passes the body -/

/-- One staging buffer of the result window, through which its contents are stated. -/
abbrev outView : View sig .tc .vmem S1x8x128 .f32 := (Memref.whole cc0_stg1_0 : Memref sig .tc .vmem S1x8x128 .f32).view
abbrev tableAt (t : Fin cfg0.N) : Memref sig .tc .vmem S4096x11 .f32 := win0_0.stage (cfg0.slots t 0)
abbrev tableAt_whole (t : Fin cfg0.N) : (tableAt t).IsWhole := hstage0_0 ((cfg0.slots t 0).cast nbuf0_0)
abbrev outAt (t : Fin cfg0.N) : Memref sig .tc .vmem S1x8x128 .f32 := win0_1.stage (cfg0.slots t 1)
abbrev outAt_whole (t : Fin cfg0.N) : (outAt t).IsWhole := hstage0_1 ((cfg0.slots t 1).cast nbuf0_1)

end Cert.Kernel.Around

end
-- ==== Proof.FrameK.RunFirst.lean ====
/-
  The body at a grid point where its branch is taken (the first step of a half). On whole staging memrefs — the
  table's block at its contents, the result's buffer at anything — the body zeroes the result's buffer, loads
  the table's block, sums the rows' contributions, loads the result's buffer back and stores it plus that sum
  broadcast to every lane. The stores the body makes, in order, are the witness: the pieces the result's buffer
  ends with.
-/
import proofs.«133909_j69681549410630_2_alg».proof.Proof.FrameK.Around

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result's staging memref (last first), with the proof that from the
    two memrefs held whole the body runs to any continuation that takes them back: the table's block as it was,
    the result's buffer with those pieces written. -/
noncomputable def runFirst (c : Dev nD) (i : grid0.Coords) (arg2 : Memref sig .tc .vmem S4096x11 .f32) (harg2 : arg2.IsWhole)
    (arg3 : Memref sig .tc .vmem S1x8x128 .f32) (harg3 : arg3.IsWhole) (hb : isFirst i)
    (x0 : Vec F S4096x11 .f32) :
    { L1 : List (View.Piece (Elt F) S1x8x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__kernel i arg2 harg2 arg3 harg3) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%d1, %f1, -, H1⟩, Hk⟩
    obtain rfl := harg2.eq_unread hf0
    sl_exec (disch := first | exact hb)
    sl_step
    iapply Hk
    isplitl [H0]
    · iexists _; isplitr; · ipureintro; exact harg2.read_unread _
      iexact H0
    iexists _; iexact H1

end Cert.Kernel.Around

end
-- ==== Proof.FrameK.RunLater.lean ====
/-
  The body at a grid point where its branch is not taken (a later step of a half). On whole staging memrefs —
  the table's block at its contents, the result's buffer at the running contents the step before left — the
  body loads the table's block, sums the rows' contributions, loads the result's buffer and stores it plus that
  sum broadcast to every lane. The one store the body makes is the witness: the piece the result's buffer ends
  with.
-/
import proofs.«133909_j69681549410630_2_alg».proof.Proof.FrameK.Around

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result's staging memref (last first), with the proof that from the
    two memrefs held whole the body runs to any continuation that takes them back: the table's block as it was,
    the result's buffer with those pieces written. -/
noncomputable def runLater (c : Dev nD) (i : grid0.Coords) (arg2 : Memref sig .tc .vmem S4096x11 .f32) (harg2 : arg2.IsWhole)
    (arg3 : Memref sig .tc .vmem S1x8x128 .f32) (harg3 : arg3.IsWhole) (hb : ¬isFirst i)
    (x0 : Vec F S4096x11 .f32) (acc : Vec F S1x8x128 .f32) :
    { L1 : List (View.Piece (Elt F) S1x8x128 .f32) //
      ∀ (E : Set ℕ) (K : PUnit → sProp 𝕄),
        iprop(owns (c : Thread nD τ) arg2 fullShare x0 ∗ owns (c : Thread nD τ) arg3 fullShare acc
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__kernel i arg2 harg2 arg3 harg3) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, Hk⟩
    obtain rfl := harg2.eq_unread hf0; obtain rfl := harg3.eq_unread hf1
    sl_exec (disch := first | exact hb)
    sl_step
    iapply Hk
    isplitl [H0]
    · iexists _; isplitr; · ipureintro; exact harg2.read_unread _
      iexact H0
    iexists _; iexact H1

end Cert.Kernel.Around

end
-- ==== Proof.FrameK.Carry.lean ====
/-
  What the result's staging buffer holds point by point, and the frame. The grid's 1024 points run half by half,
  512 steps each. At the first step of a half the body zeroes the buffer and adds the step's sum; at every later
  step it adds the step's sum to what the step before left — the buffer is written back only after a half's last
  step, so between the steps of one half it keeps its contents. This module states those contents by recursion on
  the point, gives the pipeline its proof data (the table's block at every point, those contents for the result),
  proves the body's obligation at a generic point from the two runs of the body, and launches the region between
  the host lines around it: every weakly fair execution of @main terminates without a fault, the result's array
  ends at the blocks written back and every other buffer at what the last four lines leave of it; in particular
  the three argument arrays end as launched.
-/
import proofs.«133909_j69681549410630_2_alg».proof.Proof.FrameK.RunFirst
import proofs.«133909_j69681549410630_2_alg».proof.Proof.FrameK.RunLater

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover the buffer -/

/-- At a first step the two stores (the zeroes, then the sum added) each write the whole buffer. -/
theorem cover_first (c : Dev nD) (i : grid0.Coords) (arg2 : Memref sig .tc .vmem S4096x11 .f32) (harg2 : arg2.IsWhole)
    (arg3 : Memref sig .tc .vmem S1x8x128 .f32) (harg3 : arg3.IsWhole) (hb : isFirst i)
    (x0 : Vec F S4096x11 .f32) (y : S1x8x128.Idx) :
    ∃ pc ∈ (runFirst c i arg2 harg2 arg3 harg3 hb x0).1, y ∈ pc.1.set :=
  View.cover_of_tiledL (runFirst c i arg2 harg2 arg3 harg3 hb x0).1 S1x8x128.size (by sl_kernel_rfl) y

/-- At a later step the one store writes the whole buffer. -/
theorem cover_later (c : Dev nD) (i : grid0.Coords) (arg2 : Memref sig .tc .vmem S4096x11 .f32) (harg2 : arg2.IsWhole)
    (arg3 : Memref sig .tc .vmem S1x8x128 .f32) (harg3 : arg3.IsWhole) (hb : ¬isFirst i)
    (x0 : Vec F S4096x11 .f32) (acc : Vec F S1x8x128 .f32) (y : S1x8x128.Idx) :
    ∃ pc ∈ (runLater c i arg2 harg2 arg3 harg3 hb x0 acc).1, y ∈ pc.1.set :=
  View.cover_of_tiledL (runLater c i arg2 harg2 arg3 harg3 hb x0 acc).1 S1x8x128.size (by sl_kernel_rfl) y

/-- What a first step leaves in the result's buffer: its pieces read back. -/
def leftFirst (c : Dev nD) (i : grid0.Coords) (arg2 : Memref sig .tc .vmem S4096x11 .f32) (harg2 : arg2.IsWhole)
    (arg3 : Memref sig .tc .vmem S1x8x128 .f32) (harg3 : arg3.IsWhole) (hb : isFirst i)
    (x0 : Vec F S4096x11 .f32) : Vec F S1x8x128 .f32 :=
  outView.read (Elt F) (outView.writes (Elt F) outView.junk (runFirst c i arg2 harg2 arg3 harg3 hb x0).1)

/-- What a later step leaves there, from the running contents `acc`: its piece read back. -/
def leftLater (c : Dev nD) (i : grid0.Coords) (arg2 : Memref sig .tc .vmem S4096x11 .f32) (harg2 : arg2.IsWhole)
    (arg3 : Memref sig .tc .vmem S1x8x128 .f32) (harg3 : arg3.IsWhole) (hb : ¬isFirst i)
    (x0 : Vec F S4096x11 .f32) (acc : Vec F S1x8x128 .f32) : Vec F S1x8x128 .f32 :=
  outView.read (Elt F) (outView.writes (Elt F) outView.junk (runLater c i arg2 harg2 arg3 harg3 hb x0 acc).1)

/-! ## The running contents -/

/-- What the result's staging buffer holds after the body at point `n`: a first step's contents at a multiple of
    512, otherwise a later step's over what point `n - 1` left. -/
def leftAt (c : Dev nD) : (n : ℕ) → n < cfg0.N → Vec F S1x8x128 .f32
  | 0, hn => leftFirst c (grid0.coords ⟨0, hn⟩) (tableAt ⟨0, hn⟩) (tableAt_whole ⟨0, hn⟩) (outAt ⟨0, hn⟩) (outAt_whole ⟨0, hn⟩)
      ((isFirst_iff ⟨0, hn⟩).mpr (Nat.zero_mod _)) (iblk m c 0 ⟨0, hn⟩)
  | n + 1, hn =>
    if h0 : (n + 1) % 512 = 0 then
      leftFirst c (grid0.coords ⟨n + 1, hn⟩) (tableAt ⟨n + 1, hn⟩) (tableAt_whole ⟨n + 1, hn⟩) (outAt ⟨n + 1, hn⟩) (outAt_whole ⟨n + 1, hn⟩)
        ((isFirst_iff ⟨n + 1, hn⟩).mpr h0) (iblk m c 0 ⟨n + 1, hn⟩)
    else
      leftLater c (grid0.coords ⟨n + 1, hn⟩) (tableAt ⟨n + 1, hn⟩) (tableAt_whole ⟨n + 1, hn⟩) (outAt ⟨n + 1, hn⟩) (outAt_whole ⟨n + 1, hn⟩)
        (fun h => h0 ((isFirst_iff ⟨n + 1, hn⟩).mp h)) (iblk m c 0 ⟨n + 1, hn⟩) (leftAt c n (Nat.lt_of_succ_lt hn))

/-- At a multiple of 512: a first step's contents. -/
theorem leftAt_first (c : Dev nD) (t : Fin cfg0.N) (h0 : t.val % 512 = 0) :
    leftAt m c t.val t.isLt = leftFirst c (grid0.coords t) (tableAt t) (tableAt_whole t) (outAt t) (outAt_whole t)
      ((isFirst_iff t).mpr h0) (iblk m c 0 t) := by
  obtain ⟨n, hn⟩ := t
  cases n with
  | zero => exact rfl
  | succ n => exact (dif_pos h0).trans rfl

/-- Elsewhere: a later step's contents over what the point before left. -/
theorem leftAt_later (c : Dev nD) (t : Fin cfg0.N) (h0 : ¬t.val % 512 = 0) :
    leftAt m c t.val t.isLt = leftLater c (grid0.coords t) (tableAt t) (tableAt_whole t) (outAt t) (outAt_whole t)
      (fun h => h0 ((isFirst_iff t).mp h)) (iblk m c 0 t)
      (leftAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the table's buffer at its block and the
    result's at the running contents; the invariant the scoped rest and the random-number register; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => leftAt m c t.val t.isLt
  Φ _ := Pipeline.ΦA spec0 c
  q _ := fullShare
  owed _ := 0

/-- The proof data's arrays are the region-entry contents. -/
theorem dats_A (c : Dev nD) (w : Fin cfg0.W) : (dats m 0 c).A w = V m c (Pipeline.arrRef spec0 w) := by
  dsimp only [dats]

theorem after_table (c : Dev nD) (t : Fin cfg0.N) : (dats m 0 c).after 0 t = iblk m c 0 t := by dsimp only [dats]
theorem after_out (c : Dev nD) (t : Fin cfg0.N) : (dats m 0 c).after 1 t = leftAt m c t.val t.isLt := by dsimp only [dats]

/-- The table's current staging buffer holds the table's block at every point. -/
theorem before_table (c : Dev nD) (t : Fin cfg0.N) (d) : (dats m 0 c).before 0 t d = iblk m c 0 t :=
  table_before_of m (dats m 0 c) (dats_A m c 0) (after_table m c) t d

/-- At a later step the result's current staging buffer holds what the point before left: the point is not the
    first, and the buffer is written back only after points that are 511 modulo 512. -/
theorem before_out_later (c : Dev nD) (t : Fin cfg0.N) (h0 : ¬t.val % 512 = 0) (d) :
    (dats m 0 c).before 1 t d = leftAt m c (t.val - 1) (Nat.lt_of_le_of_lt (Nat.sub_le _ _) t.isLt) := by
  have hN : t.val < 1024 := lt_of_lt_of_eq t.isLt (show cfg0.N = 1024 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (tableAt t) fullShare ((dats m 0 c).before 0 t d))
    ∗ (∃ d, owns (c : Thread nD τ) (outAt t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (tableAt t) fullShare ((dats m 0 c).after 0 t)
    ∗ owns (c : Thread nD τ) (outAt t) fullShare ((dats m 0 c).after 1 t))

set_option maxHeartbeats 800000 in
/-- The body at any point: the table's memref holds its block; the point is a first step or a later one, and at a
    later one the result's memref holds what the point before left; so the matching run of the body applies, and its
    pieces, which cover the buffer, read back as the running contents. The invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_table]
  rw [show (dats m 0 c).Φ t.succ = (dats m 0 c).Φ t.castSucc from rfl,
    show (dats m 0 c).owesAt () t.succ = (dats m 0 c).owesAt () t.castSucc from rfl,
    after_table, after_out]
  have hN : t.val < 1024 := lt_of_lt_of_eq t.isLt (show cfg0.N = 1024 from N_0)
  by_cases h0 : t.val % 512 = 0
  · rw [leftAt_first m c t h0]
    unfold leftFirst
    iintro ⟨HΦ, Ho, ⟨%d0, H0⟩, ⟨%d1, H1⟩⟩
    iapply ((runFirst c (grid0.coords t) _ _ _ _ ((isFirst_iff t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_first c _ _ _ _ _ _ _)
  · rw [leftAt_later m c t h0]
    simp only [before_out_later m c t h0]
    unfold leftLater
    iintro ⟨HΦ, Ho, ⟨%d0, H0⟩, ⟨%d1, H1⟩⟩
    iapply ((runLater c (grid0.coords t) _ _ _ _ (fun h => h0 ((isFirst_iff t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_later c _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each window's array at what the proof data's write-backs make of it and every other unscoped buffer at what the
    last four lines leave of it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := dats_A m) (hΦ := fun _ _ => rfl)

/-- The frame: @main runs to the end without a fault and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Around

end
-- ==== Proof.FrameKI.Around.lean ====
/-
  The program around its one region. @main is four host lines (three reshapes and the concatenation of their
  results into the [4194304, 11] table), the region over a 2 × 512 grid, and four host lines (the slice of one
  lane per half, its reshape, a zero, and the sum of the two halves). This module says what the region finds in
  every buffer (the launch memory carried through the first four lines), that the last four lines stay inside
  the buffers they may touch and write no window's array, that the three argument arrays are written by no line
  on either side, what a window's block at a grid point is, and at which grid points the body's one branch
  (the second grid coordinate is zero) is taken: the points that are multiples of 512.
-/
import proofs.«133909_j69681549410630_2_alg».proof.Defs
import proofs.«133909_j69681549410630_2_alg».proof.Proof.Gen.KernelIdeal.Launch
import proofs.«133909_j69681549410630_2_alg».proof.Proof.Gen.KernelIdeal.Skeleton
import proofs.«133909_j69681549410630_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What core `c`'s buffers hold when the region is entered: the launch memory after the four lines before it. -/
abbrev V0 (c : Dev nD) : Valuation τ sig (Elt F) := StableHlo.after (List.flatten [hostOps0]) (fun b => m (c, b))
/-- The same, read at a TensorCore buffer. -/
abbrev V (c : Dev nD) (b : Ref sig .tc) : Buf (Elt F) ((c : Thread nD τ).loc b) := V0 m c (Proc.devRef .tc b)

/-- The lines before the region allocate nothing; -/
theorem before_fresh : (hostOps0 : List (HloOp τ sig (Elt F))).Forall fun op => op.fresh = ∅ := by
  simp only [List.Forall]; repeat' constructor
/-- nor do the lines after it. -/
theorem after_fresh : (hostOps1 : List (HloOp τ sig (Elt F))).Forall fun op => op.fresh = ∅ := by
  simp only [List.Forall]; repeat' constructor

/-- @main is the first four lines, the region, and the region's continuation by the last four lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The last four lines touch only the windows' arrays and the buffers that bypass the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp after_fresh) op hop

/-- Each writes its own result buffer only, which is neither the table nor the region's result. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- None of the four host lines before the region writes argument 0: the region finds it as launched. -/
theorem entry_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- None of the four host lines after the region writes argument 0, and it is no window's array: it ends as launched. -/
theorem exit_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact entry_arg0 m c

/-- None of the four host lines before the region writes argument 1: the region finds it as launched. -/
theorem entry_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- None of the four host lines after the region writes argument 1, and it is no window's array: it ends as launched. -/
theorem exit_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact entry_arg1 m c

/-- None of the four host lines before the region writes argument 2: the region finds it as launched. -/
theorem entry_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- None of the four host lines after the region writes argument 2, and it is no window's array: it ends as launched. -/
theorem exit_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact entry_arg2 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The table's window is fetched at every point and its block never moves under the body, so its current staging
    buffer holds the block of the table at every point, for any proof data whose array is the region-entry table
    and whose body leaves the block in place. -/
theorem table_before_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run that ends with every buffer no window stages at what the last four lines leave of its region-entry
    contents ends with the three argument arrays as launched: no line on either side of the region writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c),
     ((h c).2 main_arg2 (Pipeline.mem_restRefs_of main_arg2 (by decide) (by decide))).trans (exit_arg2 m dats c)⟩) h

/-! ## The body's branch -/

/-- The body's one branch: the second grid coordinate, as a 32-bit word, is zero. -/
abbrev isFirst (i : grid0.Coords) : Prop := (Scalar.cmpi .ne (Scalar.extui (Scalar.cmpi .eq (BitVec.ofNat 32 (i 1).val) 0#32)) 0#32) = 1#1

/-- Over the 1024 grid points, row-major in (half, step), that is: the point is a multiple of 512. -/
theorem isFirst_iff : ∀ t : Fin cfg0.N, isFirst (grid0.coords t) ↔ t.val % 512 = 0 :=
  (by decide +kernel : ∀ t : Fin grid0.N, isFirst (grid0.coords t) ↔ t.val % 512 = 0)

/-! ## The staging memrefs the pipeline passes the body -/

/-- One staging buffer of the result window, through which its contents are stated. -/
abbrev outView : View sig .tc .vmem S1x8x128 .f32 := (Memref.whole cc0_stg1_0 : Memref sig .tc .vmem S1x8x128 .f32).view
abbrev tableAt (t : Fin cfg0.N) : Memref sig .tc .vmem S4096x11 .f32 := win0_0.stage (cfg0.slots t 0)
abbrev tableAt_whole (t : Fin cfg0.N) : (tableAt t).IsWhole := hstage0_0 ((cfg0.slots t 0).cast nbuf0_0)
abbrev outAt (t : Fin cfg0.N) : Memref sig .tc .vmem S1x8x128 .f32 := win0_1.stage (cfg0.slots t 1)
abbrev outAt_whole (t : Fin cfg0.N) : (outAt t).IsWhole := hstage0_1 ((cfg0.slots t 1).cast nbuf0_1)

end Cert.KernelIdeal.Around

end
-- ==== Proof.FrameKI.RunFirst.lean ====
/-
  The body at a grid point where its branch is taken (the first step of a half). On whole staging memrefs — the
  table's block at its contents, the result's buffer at anything — the body zeroes the result's buffer, loads
  the table's block, sums the rows' contributions, loads the result's buffer back and stores it plus that sum
  broadcast to every lane. The stores the body makes, in order, are the witness: the pieces the result's buffer
  ends with.
-/
import proofs.«133909_j69681549410630_2_alg».proof.Proof.FrameKI.Around

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result's staging memref (last first), with the proof that from the
    two memrefs held whole the body runs to any continuation that takes them back: the table's block as it was,
    the result's buffer with those pieces written. -/
noncomputable def runFirst (c : Dev nD) (i : grid0.Coords) (arg2 : Memref sig .tc .vmem S4096x11 .f32) (harg2 : arg2.IsWhole)
    (arg3 : Memref sig .tc .vmem S1x8x128 .f32) (harg3 : arg3.IsWhole) (hb : isFirst i)
    (x0 : Vec F S4096x11 .f32) :
    { L1 : List (View.Piece (Elt F) S1x8x128 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__kernel i arg2 harg2 arg3 harg3) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%d1, %f1, -, H1⟩, Hk⟩
    obtain rfl := harg2.eq_unread hf0
    sl_exec (disch := first | exact hb)
    sl_step
    iapply Hk
    isplitl [H0]
    · iexists _; isplitr; · ipureintro; exact harg2.read_unread _
      iexact H0
    iexists _; iexact H1

end Cert.KernelIdeal.Around

end
-- ==== Proof.FrameKI.RunLater.lean ====
/-
  The body at a grid point where its branch is not taken (a later step of a half). On whole staging memrefs —
  the table's block at its contents, the result's buffer at the running contents the step before left — the
  body loads the table's block, sums the rows' contributions, loads the result's buffer and stores it plus that
  sum broadcast to every lane. The one store the body makes is the witness: the piece the result's buffer ends
  with.
-/
import proofs.«133909_j69681549410630_2_alg».proof.Proof.FrameKI.Around

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the result's staging memref (last first), with the proof that from the
    two memrefs held whole the body runs to any continuation that takes them back: the table's block as it was,
    the result's buffer with those pieces written. -/
noncomputable def runLater (c : Dev nD) (i : grid0.Coords) (arg2 : Memref sig .tc .vmem S4096x11 .f32) (harg2 : arg2.IsWhole)
    (arg3 : Memref sig .tc .vmem S1x8x128 .f32) (harg3 : arg3.IsWhole) (hb : ¬isFirst i)
    (x0 : Vec F S4096x11 .f32) (acc : Vec F S1x8x128 .f32) :
    { L1 : List (View.Piece (Elt F) S1x8x128 .f32) //
      ∀ (E : Set ℕ) (K : PUnit → sProp 𝕄),
        iprop(owns (c : Thread nD τ) arg2 fullShare x0 ∗ owns (c : Thread nD τ) arg3 fullShare acc
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__kernel i arg2 harg2 arg3 harg3) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, Hk⟩
    obtain rfl := harg2.eq_unread hf0; obtain rfl := harg3.eq_unread hf1
    sl_exec (disch := first | exact hb)
    sl_step
    iapply Hk
    isplitl [H0]
    · iexists _; isplitr; · ipureintro; exact harg2.read_unread _
      iexact H0
    iexists _; iexact H1

end Cert.KernelIdeal.Around

end
-- ==== Proof.FrameKI.Carry.lean ====
/-
  What the result's staging buffer holds point by point, and the frame. The grid's 1024 points run half by half,
  512 steps each. At the first step of a half the body zeroes the buffer and adds the step's sum; at every later
  step it adds the step's sum to what the step before left — the buffer is written back only after a half's last
  step, so between the steps of one half it keeps its contents. This module states those contents by recursion on
  the point, gives the pipeline its proof data (the table's block at every point, those contents for the result),
  proves the body's obligation at a generic point from the two runs of the body, and launches the region between
  the host lines around it: every weakly fair execution of @main terminates without a fault, the result's array
  ends at the blocks written back and every other buffer at what the last four lines leave of it; in particular
  the three argument arrays end as launched.
-/
import proofs.«133909_j69681549410630_2_alg».proof.Proof.FrameKI.RunFirst
import proofs.«133909_j69681549410630_2_alg».proof.Proof.FrameKI.RunLater

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover the buffer -/

/-- At a first step the two stores (the zeroes, then the sum added) each write the whole buffer. -/
theorem cover_first (c : Dev nD) (i : grid0.Coords) (arg2 : Memref sig .tc .vmem S4096x11 .f32) (harg2 : arg2.IsWhole)
    (arg3 : Memref sig .tc .vmem S1x8x128 .f32) (harg3 : arg3.IsWhole) (hb : isFirst i)
    (x0 : Vec F S4096x11 .f32) (y : S1x8x128.Idx) :
    ∃ pc ∈ (runFirst c i arg2 harg2 arg3 harg3 hb x0).1, y ∈ pc.1.set :=
  View.cover_of_tiledL (runFirst c i arg2 harg2 arg3 harg3 hb x0).1 S1x8x128.size (by sl_kernel_rfl) y

/-- At a later step the one store writes the whole buffer. -/
theorem cover_later (c : Dev nD) (i : grid0.Coords) (arg2 : Memref sig .tc .vmem S4096x11 .f32) (harg2 : arg2.IsWhole)
    (arg3 : Memref sig .tc .vmem S1x8x128 .f32) (harg3 : arg3.IsWhole) (hb : ¬isFirst i)
    (x0 : Vec F S4096x11 .f32) (acc : Vec F S1x8x128 .f32) (y : S1x8x128.Idx) :
    ∃ pc ∈ (runLater c i arg2 harg2 arg3 harg3 hb x0 acc).1, y ∈ pc.1.set :=
  View.cover_of_tiledL (runLater c i arg2 harg2 arg3 harg3 hb x0 acc).1 S1x8x128.size (by sl_kernel_rfl) y

/-- What a first step leaves in the result's buffer: its pieces read back. -/
def leftFirst (c : Dev nD) (i : grid0.Coords) (arg2 : Memref sig .tc .vmem S4096x11 .f32) (harg2 : arg2.IsWhole)
    (arg3 : Memref sig .tc .vmem S1x8x128 .f32) (harg3 : arg3.IsWhole) (hb : isFirst i)
    (x0 : Vec F S4096x11 .f32) : Vec F S1x8x128 .f32 :=
  outView.read (Elt F) (outView.writes (Elt F) outView.junk (runFirst c i arg2 harg2 arg3 harg3 hb x0).1)

/-- What a later step leaves there, from the running contents `acc`: its piece read back. -/
def leftLater (c : Dev nD) (i : grid0.Coords) (arg2 : Memref sig .tc .vmem S4096x11 .f32) (harg2 : arg2.IsWhole)
    (arg3 : Memref sig .tc .vmem S1x8x128 .f32) (harg3 : arg3.IsWhole) (hb : ¬isFirst i)
    (x0 : Vec F S4096x11 .f32) (acc : Vec F S1x8x128 .f32) : Vec F S1x8x128 .f32 :=
  outView.read (Elt F) (outView.writes (Elt F) outView.junk (runLater c i arg2 harg2 arg3 harg3 hb x0 acc).1)

/-! ## The running contents -/

/-- What the result's staging buffer holds after the body at point `n`: a first step's contents at a multiple of
    512, otherwise a later step's over what point `n - 1` left. -/
def leftAt (c : Dev nD) : (n : ℕ) → n < cfg0.N → Vec F S1x8x128 .f32
  | 0, hn => leftFirst c (grid0.coords ⟨0, hn⟩) (tableAt ⟨0, hn⟩) (tableAt_whole ⟨0, hn⟩) (outAt ⟨0, hn⟩) (outAt_whole ⟨0, hn⟩)
      ((isFirst_iff ⟨0, hn⟩).mpr (Nat.zero_mod _)) (iblk m c 0 ⟨0, hn⟩)
  | n + 1, hn =>
    if h0 : (n + 1) % 512 = 0 then
      leftFirst c (grid0.coords ⟨n + 1, hn⟩) (tableAt ⟨n + 1, hn⟩) (tableAt_whole ⟨n + 1, hn⟩) (outAt ⟨n + 1, hn⟩) (outAt_whole ⟨n + 1, hn⟩)
        ((isFirst_iff ⟨n + 1, hn⟩).mpr h0) (iblk m c 0 ⟨n + 1, hn⟩)
    else
      leftLater c (grid0.coords ⟨n + 1, hn⟩) (tableAt ⟨n + 1, hn⟩) (tableAt_whole ⟨n + 1, hn⟩) (outAt ⟨n + 1, hn⟩) (outAt_whole ⟨n + 1, hn⟩)
        (fun h => h0 ((isFirst_iff ⟨n + 1, hn⟩).mp h)) (iblk m c 0 ⟨n + 1, hn⟩) (leftAt c n (Nat.lt_of_succ_lt hn))

/-- At a multiple of 512: a first step's contents. -/
theorem leftAt_first (c : Dev nD) (t : Fin cfg0.N) (h0 : t.val % 512 = 0) :
    leftAt m c t.val t.isLt = leftFirst c (grid0.coords t) (tableAt t) (tableAt_whole t) (outAt t) (outAt_whole t)
      ((isFirst_iff t).mpr h0) (iblk m c 0 t) := by
  obtain ⟨n, hn⟩ := t
  cases n with
  | zero => exact rfl
  | succ n => exact (dif_pos h0).trans rfl

/-- Elsewhere: a later step's contents over what the point before left. -/
theorem leftAt_later (c : Dev nD) (t : Fin cfg0.N) (h0 : ¬t.val % 512 = 0) :
    leftAt m c t.val t.isLt = leftLater c (grid0.coords t) (tableAt t) (tableAt_whole t) (outAt t) (outAt_whole t)
      (fun h => h0 ((isFirst_iff t).mp h)) (iblk m c 0 t)
      (leftAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the table's buffer at its block and the
    result's at the running contents; the invariant the scoped rest and the random-number register; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => leftAt m c t.val t.isLt
  Φ _ := Pipeline.ΦA spec0 c
  q _ := fullShare
  owed _ := 0

/-- The proof data's arrays are the region-entry contents. -/
theorem dats_A (c : Dev nD) (w : Fin cfg0.W) : (dats m 0 c).A w = V m c (Pipeline.arrRef spec0 w) := by
  dsimp only [dats]

theorem after_table (c : Dev nD) (t : Fin cfg0.N) : (dats m 0 c).after 0 t = iblk m c 0 t := by dsimp only [dats]
theorem after_out (c : Dev nD) (t : Fin cfg0.N) : (dats m 0 c).after 1 t = leftAt m c t.val t.isLt := by dsimp only [dats]

/-- The table's current staging buffer holds the table's block at every point. -/
theorem before_table (c : Dev nD) (t : Fin cfg0.N) (d) : (dats m 0 c).before 0 t d = iblk m c 0 t :=
  table_before_of m (dats m 0 c) (dats_A m c 0) (after_table m c) t d

/-- At a later step the result's current staging buffer holds what the point before left: the point is not the
    first, and the buffer is written back only after points that are 511 modulo 512. -/
theorem before_out_later (c : Dev nD) (t : Fin cfg0.N) (h0 : ¬t.val % 512 = 0) (d) :
    (dats m 0 c).before 1 t d = leftAt m c (t.val - 1) (Nat.lt_of_le_of_lt (Nat.sub_le _ _) t.isLt) := by
  have hN : t.val < 1024 := lt_of_lt_of_eq t.isLt (show cfg0.N = 1024 from N_0)
  rw [Dat.before_out_kept _ 1 rfl t (by omega) (Bool.eq_false_iff.mpr fun h => by have := (flush0_1 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (tableAt t) fullShare ((dats m 0 c).before 0 t d))
    ∗ (∃ d, owns (c : Thread nD τ) (outAt t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (tableAt t) fullShare ((dats m 0 c).after 0 t)
    ∗ owns (c : Thread nD τ) (outAt t) fullShare ((dats m 0 c).after 1 t))

set_option maxHeartbeats 800000 in
/-- The body at any point: the table's memref holds its block; the point is a first step or a later one, and at a
    later one the result's memref holds what the point before left; so the matching run of the body applies, and its
    pieces, which cover the buffer, read back as the running contents. The invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_table]
  rw [show (dats m 0 c).Φ t.succ = (dats m 0 c).Φ t.castSucc from rfl,
    show (dats m 0 c).owesAt () t.succ = (dats m 0 c).owesAt () t.castSucc from rfl,
    after_table, after_out]
  have hN : t.val < 1024 := lt_of_lt_of_eq t.isLt (show cfg0.N = 1024 from N_0)
  by_cases h0 : t.val % 512 = 0
  · rw [leftAt_first m c t h0]
    unfold leftFirst
    iintro ⟨HΦ, Ho, ⟨%d0, H0⟩, ⟨%d1, H1⟩⟩
    iapply ((runFirst c (grid0.coords t) _ _ _ _ ((isFirst_iff t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_first c _ _ _ _ _ _ _)
  · rw [leftAt_later m c t h0]
    simp only [before_out_later m c t h0]
    unfold leftLater
    iintro ⟨HΦ, Ho, ⟨%d0, H0⟩, ⟨%d1, H1⟩⟩
    iapply ((runLater c (grid0.coords t) _ _ _ _ (fun h => h0 ((isFirst_iff t).mp h)) (iblk m c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover_later c _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each window's array at what the proof data's write-backs make of it and every other unscoped buffer at what the
    last four lines leave of it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := dats_A m) (hΦ := fun _ _ => rfl)

/-- The frame: @main runs to the end without a fault and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Around

end
-- ==== Proof.FrameKI.Left.lean ====
/-
  What one step leaves in the result's staging buffer, as the body's own arithmetic. The pieces the two runs of
  the body found are single stores through the whole-buffer rectangle, and every load in the body reads a whole
  buffer, so reading the pieces back gives the stored value itself: at a later step the buffer's running
  contents plus the block's sum broadcast to every lane; at a first step the same with the zeroes just stored in
  place of the running contents.
-/
import proofs.«133909_j69681549410630_2_alg».proof.Proof.FrameKI.Carry
import Idealize.ShloMosaic.Lib.Pipeline.Value

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem offsets3_zero : (![0, 0, 0] : Fin 3 → Nat) = fun _ => 0 := funext fun a => by fin_cases a <;> rfl
theorem offsets2_zero : (![0, 0] : Fin 2 → Nat) = fun _ => 0 := funext fun a => by fin_cases a <;> rfl

/-- A later step: the running contents plus the block's sum on every lane. -/
theorem leftLater_eq (c : Dev nD) (i : grid0.Coords) (a2 : Memref sig .tc .vmem S4096x11 .f32) (h2 : a2.IsWhole)
    (a3 : Memref sig .tc .vmem S1x8x128 .f32) (h3 : a3.IsWhole) (hb : ¬isFirst i) (x : Vec F S4096x11 .f32) (acc : Vec F S1x8x128 .f32) :
    leftLater c i a2 h2 a3 h3 hb x acc = k0_pay1 (k0_pay3 x) acc := by
  unfold leftLater
  rw [View.read_writes_eq_canon _ _ _ (cover_later c i a2 h2 a3 h3 hb x acc)]
  unfold runLater
  dsimp only
  sl_unfold_words
  rw [View.canon_unit_zero offsets3_zero]
  simp only [View.readAt_eq_ld, h2.read_unread, h3.read_unread, View.ld_unit_zero (S := S1x8x128) offsets3_zero,
    View.ld_unit_zero (S := S4096x11) offsets2_zero]

/-- A first step: the zeroes just stored, read back, plus the block's sum on every lane. -/
theorem leftFirst_eq (c : Dev nD) (i : grid0.Coords) (a2 : Memref sig .tc .vmem S4096x11 .f32) (h2 : a2.IsWhole)
    (a3 : Memref sig .tc .vmem S1x8x128 .f32) (h3 : a3.IsWhole) (hb : isFirst i) (x : Vec F S4096x11 .f32) :
    leftFirst c i a2 h2 a3 h3 hb x = k0_pay1 (k0_pay3 x) (k0_pay2 (F := F)) := by
  unfold leftFirst
  rw [View.read_writes_eq_canon _ _ _ (cover_first c i a2 h2 a3 h3 hb x)]
  unfold runFirst
  dsimp only
  sl_unfold_words
  rw [View.canon_cons_unit_zero (S := S1x8x128) offsets3_zero, View.readCov_unit_zero (S := S1x8x128) _ offsets3_zero]
  simp only [View.readAt_eq_ld, h2.read_unread, View.ld_unit_zero (S := S4096x11) offsets2_zero]

end Cert.KernelIdeal.Around

end
-- ==== Proof.Energy.lean ====
/-
  The quantity both programs compute. A triangle of the mesh is given by its three deformed vertices
  (v0, v1, v2, two coordinates each), the inverse A⁻¹ of its rest-pose edge matrix (four numbers), and its area
  weight w. Its edge matrix B has the edges v1 − v0 and v2 − v0 as columns, its deformation Jacobian is
  J = B · A⁻¹, and its weighted symmetric-Dirichlet energy is

      w · ‖J‖² · (1 + 1 / det(J)²),    ‖J‖² = J₀₀² + J₀₁² + J₁₀² + J₁₁²,    det J = J₀₀·J₁₁ − J₀₁·J₁₀.

  The result is the sum of the energies of all 4194304 triangles, taken from zero. Everything is read on the
  extended reals, with the quotient the one the float division denotes there and both zero and one the values of
  their float words; no finiteness of the data is used anywhere, because the two programs differ only in how the
  sums are grouped, and addition of extended reals is commutative and associative.
-/
import Idealize.ShloMosaic.PureOps.Ideal
import Idealize.ShloMosaic.Lib.ValueIdx

noncomputable section

open scoped BigOperators

namespace Cert.Energy

open Idealize.ShloMosaic Idealize.ShloMosaic.ValueIdx

/-- The float word of 1.0, as an extended real. -/
abbrev one : EReal := Ideal.ofBits .f32 0x3F800000#32
/-- The float word of +0.0, as an extended real. -/
abbrev zero : EReal := Ideal.ofBits .f32 0x00000000#32

/-- One triangle's weighted energy from its eleven numbers: the six vertex coordinates, the four entries of the
    inverse rest-pose edge matrix, and the weight. -/
def ofTriangle (v0x v0y v1x v1y v2x v2y a00 a01 a10 a11 w : EReal) : EReal :=
  let j00 := (v1x - v0x) * a00 + (v2x - v0x) * a10
  let j01 := (v1x - v0x) * a01 + (v2x - v0x) * a11
  let j10 := (v1y - v0y) * a00 + (v2y - v0y) * a10
  let j11 := (v1y - v0y) * a01 + (v2y - v0y) * a11
  let det := j00 * j11 - j01 * j10
  w * (j00 * j00 + j01 * j01 + j10 * j10 + j11 * j11) * (one + Ideal.div one (det * det))

/-- Triangle `t`'s energy from the three arrays: vertices [T, 3, 2], inverse edge matrices [T, 2, 2], weights [T]. -/
def tri (y : (⟨3, ![4194304, 3, 2]⟩ : Shape).Idx → EReal) (A : (⟨3, ![4194304, 2, 2]⟩ : Shape).Idx → EReal)
    (a : (⟨1, ![4194304]⟩ : Shape).Idx → EReal) (t : Fin 4194304) : EReal :=
  ofTriangle (y (ix3 t (0 : Fin 3) (0 : Fin 2))) (y (ix3 t (0 : Fin 3) (1 : Fin 2)))
    (y (ix3 t (1 : Fin 3) (0 : Fin 2))) (y (ix3 t (1 : Fin 3) (1 : Fin 2)))
    (y (ix3 t (2 : Fin 3) (0 : Fin 2))) (y (ix3 t (2 : Fin 3) (1 : Fin 2)))
    (A (ix3 t (0 : Fin 2) (0 : Fin 2))) (A (ix3 t (0 : Fin 2) (1 : Fin 2)))
    (A (ix3 t (1 : Fin 2) (0 : Fin 2))) (A (ix3 t (1 : Fin 2) (1 : Fin 2)))
    (a (ix1 t))

/-- The same at a natural number: triangle `k`'s energy when `k` is a triangle, zero beyond the mesh. (Sums over
    tiles of the mesh are written over this total function, so that a tile's offset needs no bound in the term.) -/
def triNat (y : (⟨3, ![4194304, 3, 2]⟩ : Shape).Idx → EReal) (A : (⟨3, ![4194304, 2, 2]⟩ : Shape).Idx → EReal)
    (a : (⟨1, ![4194304]⟩ : Shape).Idx → EReal) (k : ℕ) : EReal :=
  if h : k < 4194304 then tri y A a ⟨k, h⟩ else 0

theorem triNat_of_lt (y A a) (k : ℕ) (h : k < 4194304) : triNat y A a k = tri y A a ⟨k, h⟩ := dif_pos h

/-- The loss: zero plus the sum of all triangles' energies. -/
def total (y : (⟨3, ![4194304, 3, 2]⟩ : Shape).Idx → EReal) (A : (⟨3, ![4194304, 2, 2]⟩ : Shape).Idx → EReal)
    (a : (⟨1, ![4194304]⟩ : Shape).Idx → EReal) : EReal :=
  zero + ∑ t : Fin 4194304, tri y A a t

/-- The energies of the 4096 triangles of tile `n` (triangles 4096·n, …, 4096·n + 4095), summed. -/
def tile (y : (⟨3, ![4194304, 3, 2]⟩ : Shape).Idx → EReal) (A : (⟨3, ![4194304, 2, 2]⟩ : Shape).Idx → EReal)
    (a : (⟨1, ![4194304]⟩ : Shape).Idx → EReal) (n : ℕ) : EReal :=
  ∑ r : Fin 4096, triNat y A a (n * 4096 + r.val)

end Cert.Energy

end
-- ==== Proof.LibRowReduce.lean ====
/-
  Reductions down the rows of an `[m, N]` array, read at a column.

  A kernel that keeps the batch on the lanes reduces over the few rows of an `[m, N]` value (axis 0), obtaining a vector of
  length `N`, and views it as the one row of a `[1, N]` array (a sum or a maximum taken with the axis kept).  At the extended
  reals the entry of that row at column `q` is the sum, or the fold of `max` from the accumulator's value, over the `m` entries
  of column `q`.  General in both extents.
-/
import Idealize.ShloMosaic.PureOps.Ideal.Laws
import Idealize.ShloMosaic.Lib.ValueIdx
import Idealize.ShloMosaic.Lib.ValueLayout

noncomputable section

open scoped BigOperators

namespace LibRowReduce

open Idealize.ShloMosaic Idealize.ShloMosaic.ValueIdx

variable {m N : Nat}

/-- The reduced index `q` with row `k` put back is `(k, q)`. -/
theorem lift_rows (h : (⟨2, ![m, N]⟩ : Shape).Reduces [0] (⟨1, ![N]⟩ : Shape)) (q : Fin N)
    (k : Fin ((⟨2, ![m, N]⟩ : Shape).size 0)) : h.lift (ix1 q) k = ix2 (⟨k.val, k.isLt⟩ : Fin m) q := by
  funext c; apply Fin.ext
  fin_cases c <;> rfl

/-- The sum down the rows, kept as one row: at column `q` it is the sum of column `q`'s entries. -/
theorem sumRows_apply (V : FVec Ideal ⟨2, ![m, N]⟩ .f32) (h : (⟨2, ![m, N]⟩ : Shape).Reduces [0] (⟨1, ![N]⟩ : Shape))
    (hφ : FKind.Formats .f32) (hacc : (0x00000000#32 : BitVec 32) = 0x00000000#32)
    (hs : (⟨1, ![N]⟩ : Shape).ShapeCasts ⟨2, ![1, N]⟩) (u : Fin 1) (q : Fin N) :
    shapeCast ⟨2, ![1, N]⟩ (multiReduction .add [0] ⟨1, ![N]⟩ V 0x00000000#32 h hφ hacc) hs (ix2 u q)
      = ∑ a : Fin m, V (ix2 a q) := by
  refine (shapeCast_a_1a_apply _ hs u q).trans ?_
  refine (Ideal.multiReduction_add_single V 0x00000000#32 h hφ hacc (ix1 q)).trans ?_
  exact Finset.sum_congr rfl fun k _ => congrArg V (lift_rows h q k)

/-- The maximum down the rows from the accumulator's value, kept as one row: at column `q` it is the fold of `max` over
    column `q`'s entries. -/
theorem maxRows_apply (V : FVec Ideal ⟨2, ![m, N]⟩ .f32) (acc : BitVec 32) (h : (⟨2, ![m, N]⟩ : Shape).Reduces [0] (⟨1, ![N]⟩ : Shape))
    (hφ : FKind.Formats .f32) (hacc' : acc = FKind.maximumf.neutral .f32 hφ)
    (hs : (⟨1, ![N]⟩ : Shape).ShapeCasts ⟨2, ![1, N]⟩) (u : Fin 1) (q : Fin N) :
    shapeCast ⟨2, ![1, N]⟩ (multiReduction .maximumf [0] ⟨1, ![N]⟩ V acc h hφ hacc') hs (ix2 u q)
      = (Finset.univ : Finset (Fin m)).fold max (Ideal.ofBits .f32 acc) (fun a => V (ix2 a q)) := by
  refine (shapeCast_a_1a_apply _ hs u q).trans ?_
  refine (Ideal.multiReduction_maximumf_single V acc h hφ hacc' (ix1 q)).trans ?_
  exact congrArg (fun f => Finset.fold max (Ideal.ofBits .f32 acc) f (Finset.univ : Finset (Fin m)))
    (funext fun k => congrArg V (lift_rows h q k))

end LibRowReduce

end
-- ==== Proof.Step.lean ====
/-
  The body's arithmetic at the extended reals, read entry by entry. The block the body loads is 4096 rows of
  eleven numbers: a triangle's six vertex coordinates, its four inverse-edge-matrix entries, its weight. The
  body cuts the eleven columns apart, forms every row's energy by pointwise operations on the columns, and adds
  the 4096 energies up (a sum down the rows of a one-column array). That sum, a single number, is spread to
  every lane of the [1, 8, 128] buffer and added to the buffer's running contents; the zeroes stored at a first
  step are the float word +0.0 on every lane.
-/
import proofs.«133909_j69681549410630_2_alg».proof.Proof.Energy
import proofs.«133909_j69681549410630_2_alg».proof.Proof.LibRowReduce
import proofs.«133909_j69681549410630_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Step

open Idealize.ShloMosaic Idealize.ShloMosaic.ValueIdx Cert.KernelIdeal Cert.KernelIdeal.Gen

/-- Row `r` of a [4096, 11] block, read as a triangle: its energy. -/
def rowEnergy (x : FVec Ideal S4096x11 .f32) (r : Fin 4096) : EReal :=
  Cert.Energy.ofTriangle (x (ix2 r (0 : Fin 11))) (x (ix2 r (1 : Fin 11))) (x (ix2 r (2 : Fin 11))) (x (ix2 r (3 : Fin 11)))
    (x (ix2 r (4 : Fin 11))) (x (ix2 r (5 : Fin 11))) (x (ix2 r (6 : Fin 11))) (x (ix2 r (7 : Fin 11)))
    (x (ix2 r (8 : Fin 11))) (x (ix2 r (9 : Fin 11))) (x (ix2 r (10 : Fin 11)))

/-- Column `k` of the block, cut out as a [4096, 1] array, read at row `r`. -/
theorem column_apply (x : FVec Ideal S4096x11 .f32) (o : Nat) (h : S4096x11.Slices ![0, o] S4096x1) (k : Fin 11) (hk : k.val = o)
    (r : Fin 4096) (u : Fin 1) : extractStridedSlice S4096x1 ![0, o] x h (ix2 r u) = x (ix2 r k) :=
  slice2_axis1_apply o x h r u k (by omega)

/-- The block's sum, kept as a [1, 1] array: at its one entry, the sum of the 4096 rows' energies. -/
theorem blockSum_apply (x : Vec Ideal S4096x11 .f32) (u q : Fin 1) :
    shapeCast S1x1 (k0_pay3 (F := Ideal) x) shapeCasts_S1_S1x1 (ix2 u q) = ∑ r : Fin 4096, rowEnergy x r := by
  unfold k0_pay3
  refine (LibRowReduce.sumRows_apply _ reduces_S4096x1_S1 (.inl rfl) rfl shapeCasts_S1_S1x1 u q).trans ?_
  refine Finset.sum_congr rfl fun r _ => ?_
  simp only [mulf_apply, addf_apply, subf_apply, divf_apply, broadcast_apply, shapeCast_self,
    column_apply x 0 _ (0 : Fin 11) rfl, column_apply x 1 _ (1 : Fin 11) rfl, column_apply x 2 _ (2 : Fin 11) rfl,
    column_apply x 3 _ (3 : Fin 11) rfl, column_apply x 4 _ (4 : Fin 11) rfl, column_apply x 5 _ (5 : Fin 11) rfl,
    column_apply x 6 _ (6 : Fin 11) rfl, column_apply x 7 _ (7 : Fin 11) rfl, column_apply x 8 _ (8 : Fin 11) rfl,
    column_apply x 9 _ (9 : Fin 11) rfl, column_apply x 10 _ (10 : Fin 11) rfl]
  rfl

/-- The accumulating store's value at a lane: the running contents there plus the block's sum. -/
theorem accumulate_apply (s : FVec Ideal S1 .f32) (acc : Vec Ideal S1x8x128 .f32) (j : S1x8x128.Idx) :
    k0_pay1 (F := Ideal) s acc j = acc j + shapeCast S1x1 s shapeCasts_S1_S1x1 (ix2 (0 : Fin 1) (0 : Fin 1)) := by
  unfold k0_pay1
  show (shapeCast S1x8x128 acc shapeCasts_S1x8x128_S1x8x128) j
      + broadcastTo S1x8x128 (shapeCast S1x1x1 (shapeCast S1x1 s shapeCasts_S1_S1x1) shapeCasts_S1x1_S1x1x1) broadcasts_S1x1x1_S1x8x128 j = _
  rw [shapeCast_self]
  refine congrArg (acc j + ·) ?_
  refine (broadcastTo_apply _ broadcasts_S1x1x1_S1x8x128 j (ix3 (0 : Fin 1) (0 : Fin 1) (0 : Fin 1)) (fun a => ?_)).trans ?_
  · match a with
    | ⟨0, _⟩ => rfl
    | ⟨1, _⟩ => rfl
    | ⟨2, _⟩ => rfl
  · exact shapeCast_apply _ shapeCasts_S1x1_S1x1x1 _ (ix2 (0 : Fin 1) (0 : Fin 1)) (by
      rw [Shape.rowMajor_val_two, Shape.rowMajor_val_three]; rfl)

/-- The zeroes a first step stores: the float word +0.0 on every lane. -/
theorem zeroes_apply (j : S1x8x128.Idx) : k0_pay2 (F := Ideal) j = Cert.Energy.zero := rfl

/-- So a step's stored value at a lane is the running contents there plus the sum of the block's rows' energies. -/
theorem step_apply (x : Vec Ideal S4096x11 .f32) (acc : Vec Ideal S1x8x128 .f32) (j : S1x8x128.Idx) :
    k0_pay1 (F := Ideal) (k0_pay3 (F := Ideal) x) acc j = acc j + ∑ r : Fin 4096, rowEnergy x r :=
  (accumulate_apply _ acc j).trans (congrArg (acc j + ·) (blockSum_apply x 0 0))

end Cert.KernelIdeal.Step

end
-- ==== Proof.LibNary3.lean ====
import Idealize.ShloMosaic.Lib.StableHlo.Run

/-!
# A host operation over three operand buffers

A host operation that reads a FAMILY of operand buffers (a concatenation of several arrays) writes, at its result
buffer, its function applied to the family of the operands' contents.  When the family is a literal list of three
buffers, the contents can be named one by one, each at its own buffer: the family `k ↦ contents of buffer k` is the
three contents consed together.  In that form each operand's contents is read at a literal buffer, so whatever wrote
that buffer can be read in turn; in the family form the buffer `k` of the list is not a literal, and the reading stops
there.  (The library has the four-operand form; this is the three-operand one, stated the same way.)
-/

noncomputable section

namespace Idealize.ShloMosaic.StableHlo

variable {τ : Topo} {sig : RefSig} {Val : EltTy → Type}
variable {x a b y : Ref sig .tc}

/-- The result of an operation over the literal family `![x, a, b]`, with each operand's contents at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for a simplifier pass: the result buffer is matched up to unfolding. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The same for an operation whose function reads the family only through its three entries: the result is that
    function of the three operands' contents, each an ordinary argument at its own buffer. -/
theorem nary3_result_fn
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (Proc.devRef .tc y)
      = g (F (Proc.devRef .tc x)) (F (Proc.devRef .tc a)) (F (Proc.devRef .tc b)) := by
  rw [nary3_result]; rfl

end Idealize.ShloMosaic.StableHlo

end
-- ==== Proof.Blocks.lean ====
/-
  The table the region reads, and a grid point's block of it. The four host lines before the region lay the three
  arrays side by side: row t of the [4194304, 11] table is triangle t's six vertex coordinates (vertex-major),
  then the four entries of its inverse edge matrix (row-major), then its weight. The table's window at grid point
  t is rows 4096·t, …, 4096·t + 4095, all eleven columns. So row r of the block at point t, read as a triangle,
  is triangle 4096·t + r of the mesh, and the sum of the block's rows' energies is the sum over tile t.
-/
import proofs.«133909_j69681549410630_2_alg».proof.Proof.FrameKI.Carry
import proofs.«133909_j69681549410630_2_alg».proof.Proof.Energy
import proofs.«133909_j69681549410630_2_alg».proof.Proof.Step
import proofs.«133909_j69681549410630_2_alg».proof.Proof.LibNary3
import Idealize.ShloMosaic.Lib.Pipeline.Value
import Idealize.ShloMosaic.Lib.ValueIdx

set_option maxRecDepth 16384

noncomputable section

open scoped BigOperators

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Around

/-! ## The table -/

/-- The [4194304, 11] table of the three arrays: each flattened to one row per triangle, then joined along the columns. -/
def table (y : S4194304x3x2.Idx → EReal) (A : S4194304x2x2.Idx → EReal) (a : S4194304.Idx → EReal) : S4194304x11.Idx → EReal :=
  concatenate S4194304x11 1 [⟨S4194304x6, shapeCast S4194304x6 y shapeCasts_S4194304x3x2_S4194304x6⟩,
    ⟨S4194304x4, shapeCast S4194304x4 A shapeCasts_S4194304x2x2_S4194304x4⟩,
    ⟨S4194304x1, shapeCast S4194304x1 a shapeCasts_S4194304_S4194304x1⟩] concatenates_S4194304x6_S4194304x4_S4194304x1_S4194304x11_d1

/-- Columns 0–5 of row `i`: vertex `v`'s coordinate `d` sits in column 2·v + d. -/
theorem table_vertex (y : S4194304x3x2.Idx → EReal) (A : S4194304x2x2.Idx → EReal) (a : S4194304.Idx → EReal)
    (i : Fin 4194304) (v : Fin 3) (d : Fin 2) (k : Fin 11) (hk : k.val = 2 * v.val + d.val) :
    table y A a (ix2 i k) = y (ix3 i v d) := by
  have hv := v.isLt; have hd := d.isLt
  unfold table
  refine (concatenate_apply_piece (1 : Fin S4194304x11.rank) _ _ (ix2 i k) 0 (by show 0 < 3; omega) S4194304x6 _ rfl rfl 0 rfl
    (ix2 i (⟨2 * v.val + d.val, by omega⟩ : Fin 6)) (fun b hb => ?_) ?_).trans ?_
  · match b with
    | ⟨0, _⟩ => rfl
    | ⟨1, _⟩ => exact absurd rfl hb
  · show 0 + (2 * v.val + d.val) = k.val; omega
  · exact shapeCast_apply y _ _ (ix3 i v d) (by
      rw [Shape.rowMajor_val_three, Shape.rowMajor_val_two]
      show (i.val * 3 + v.val) * 2 + d.val = i.val * 6 + (2 * v.val + d.val); omega)

/-- Columns 6–9 of row `i`: entry (p, q) of the inverse edge matrix sits in column 6 + 2·p + q. -/
theorem table_inverse (y : S4194304x3x2.Idx → EReal) (A : S4194304x2x2.Idx → EReal) (a : S4194304.Idx → EReal)
    (i : Fin 4194304) (p q : Fin 2) (k : Fin 11) (hk : k.val = 6 + 2 * p.val + q.val) :
    table y A a (ix2 i k) = A (ix3 i p q) := by
  have hp := p.isLt; have hq := q.isLt
  unfold table
  refine (concatenate_apply_piece (1 : Fin S4194304x11.rank) _ _ (ix2 i k) 1 (by show 1 < 3; omega) S4194304x4 _ rfl rfl 6 rfl
    (ix2 i (⟨2 * p.val + q.val, by omega⟩ : Fin 4)) (fun b hb => ?_) ?_).trans ?_
  · match b with
    | ⟨0, _⟩ => rfl
    | ⟨1, _⟩ => exact absurd rfl hb
  · show 6 + (2 * p.val + q.val) = k.val; omega
  · exact shapeCast_apply A _ _ (ix3 i p q) (by
      rw [Shape.rowMajor_val_three, Shape.rowMajor_val_two]
      show (i.val * 2 + p.val) * 2 + q.val = i.val * 4 + (2 * p.val + q.val); omega)

/-- Column 10 of row `i`: the weight. -/
theorem table_weight (y : S4194304x3x2.Idx → EReal) (A : S4194304x2x2.Idx → EReal) (a : S4194304.Idx → EReal)
    (i : Fin 4194304) : table y A a (ix2 i (10 : Fin 11)) = a (ix1 i) := by
  unfold table
  refine (concatenate_apply_piece (1 : Fin S4194304x11.rank) _ _ (ix2 i (10 : Fin 11)) 2 (by show 2 < 3; omega) S4194304x1 _ rfl rfl 10 rfl
    (ix2 i (0 : Fin 1)) (fun b hb => ?_) ?_).trans ?_
  · match b with
    | ⟨0, _⟩ => rfl
    | ⟨1, _⟩ => exact absurd rfl hb
  · rfl
  · exact shapeCast_apply a _ _ (ix1 i) (by
      rw [Shape.rowMajor_val_one, Shape.rowMajor_val_two]
      show i.val = i.val * 1 + 0; omega)

/-- So a row of the table, read as a triangle, is that triangle of the mesh. -/
theorem table_row (y : S4194304x3x2.Idx → EReal) (A : S4194304x2x2.Idx → EReal) (a : S4194304.Idx → EReal) (i : Fin 4194304) :
    Cert.Energy.ofTriangle (table y A a (ix2 i (0 : Fin 11))) (table y A a (ix2 i (1 : Fin 11))) (table y A a (ix2 i (2 : Fin 11)))
      (table y A a (ix2 i (3 : Fin 11))) (table y A a (ix2 i (4 : Fin 11))) (table y A a (ix2 i (5 : Fin 11)))
      (table y A a (ix2 i (6 : Fin 11))) (table y A a (ix2 i (7 : Fin 11))) (table y A a (ix2 i (8 : Fin 11)))
      (table y A a (ix2 i (9 : Fin 11))) (table y A a (ix2 i (10 : Fin 11)))
    = Cert.Energy.tri y A a i := by
  rw [table_vertex y A a i 0 0 0 rfl, table_vertex y A a i 0 1 1 rfl, table_vertex y A a i 1 0 2 rfl, table_vertex y A a i 1 1 3 rfl,
    table_vertex y A a i 2 0 4 rfl, table_vertex y A a i 2 1 5 rfl, table_inverse y A a i 0 0 6 rfl, table_inverse y A a i 0 1 7 rfl,
    table_inverse y A a i 1 0 8 rfl, table_inverse y A a i 1 1 9 rfl, table_weight y A a i]
  rfl

variable (m : (ℓ : Loc nD τ sig) → Buf (Elt Ideal) ℓ)

/-- What the region finds in the table's buffer: the table of the three arrays as launched. -/
theorem entry_table (c : Dev nD) :
    (V m c main_v3 : S4194304x11.Idx → EReal)
      = table (m ((c.tc : Thread nD τ).loc main_arg0)) (m ((c.tc : Thread nD τ).loc main_arg1)) (m ((c.tc : Thread nD τ).loc main_arg2)) := by
  dsimp only [V, V0]
  simp only [hostOps0, List.flatten_cons, List.flatten_nil, List.append_nil, List.cons_append, List.nil_append]
  simp only [StableHlo.after_cons, StableHlo.after_nil]
  refine Eq.trans (StableHlo.nary3_result_fn (τ := τ) (Val := Elt Ideal) (x := main_v0) (a := main_v1) (b := main_v2) (y := main_v3)
    (fun p q r => concatenate S4194304x11 1 [⟨S4194304x6, p⟩, ⟨S4194304x4, q⟩, ⟨S4194304x1, r⟩]
      concatenates_S4194304x6_S4194304x4_S4194304x1_S4194304x11_d1) _ _ _) ?_
  repeat (first | rw [StableHlo.reshape_result] | (rw [StableHlo.reshape_result_ne]; rotate_left; decide))
  rfl

/-! ## A grid point's block -/

/-- The table's window at point `t` starts at block row `t`, block column 0 — decided over the 1024 points. -/
theorem table_index : ∀ t : Fin cfg0.N, win0_0.index t 0 = t.val ∧ win0_0.index t 1 = 0 :=
  (by decide +kernel : ∀ t : Fin grid0.N, win0_0.index t 0 = t.val ∧ win0_0.index t 1 = 0)

/-- Entry (r, k) of the block at point `t` is entry (4096·t + r, k) of the table. -/
theorem iblk_apply (c : Dev nD) (t : Fin cfg0.N) (r : Fin 4096) (k : Fin 11) (i : Fin 4194304) (hi : i.val = t.val * 4096 + r.val) :
    (iblk m c 0 t : Vec Ideal S4096x11 .f32) (ix2 r k) = (V m c main_v3 : S4194304x11.Idx → EReal) (ix2 i k) := by
  unfold iblk
  rw [View.read_apply]
  show V m c main_v3 _ = V m c main_v3 _
  refine congrArg (V m c main_v3) (funext fun a => Fin.ext ?_)
  match a with
  | ⟨0, _⟩ => show win0_0.index t 0 * 4096 + 1 * r.val = i.val; rw [(table_index t).1]; omega
  | ⟨1, _⟩ => show win0_0.index t 1 * 11 + 1 * k.val = k.val; rw [(table_index t).2]; omega

/-- Row `r` of the block at point `t`, read as a triangle, is triangle 4096·t + r. -/
theorem row_of_block (c : Dev nD) (t : Fin cfg0.N) (r : Fin 4096) (i : Fin 4194304) (hi : i.val = t.val * 4096 + r.val) :
    Cert.KernelIdeal.Step.rowEnergy (iblk m c 0 t) r
      = Cert.Energy.tri (m ((c.tc : Thread nD τ).loc main_arg0)) (m ((c.tc : Thread nD τ).loc main_arg1)) (m ((c.tc : Thread nD τ).loc main_arg2)) i := by
  unfold Cert.KernelIdeal.Step.rowEnergy
  rw [iblk_apply m c t r (0 : Fin 11) i hi, iblk_apply m c t r (1 : Fin 11) i hi, iblk_apply m c t r (2 : Fin 11) i hi,
    iblk_apply m c t r (3 : Fin 11) i hi, iblk_apply m c t r (4 : Fin 11) i hi, iblk_apply m c t r (5 : Fin 11) i hi,
    iblk_apply m c t r (6 : Fin 11) i hi, iblk_apply m c t r (7 : Fin 11) i hi, iblk_apply m c t r (8 : Fin 11) i hi,
    iblk_apply m c t r (9 : Fin 11) i hi, iblk_apply m c t r (10 : Fin 11) i hi, entry_table m c]
  exact table_row _ _ _ i

/-- The sum of the rows' energies of the block at point `t` is the sum over tile `t` of the mesh. -/
theorem blockSum_tile (c : Dev nD) (t : Fin cfg0.N) :
    ∑ r : Fin 4096, Cert.KernelIdeal.Step.rowEnergy (iblk m c 0 t) r
      = Cert.Energy.tile (m ((c.tc : Thread nD τ).loc main_arg0)) (m ((c.tc : Thread nD τ).loc main_arg1)) (m ((c.tc : Thread nD τ).loc main_arg2)) t.val := by
  have hN : t.val < 1024 := lt_of_lt_of_eq t.isLt (show cfg0.N = 1024 from N_0)
  unfold Cert.Energy.tile
  refine Finset.sum_congr rfl fun r _ => ?_
  have hr := r.isLt
  have hlt : t.val * 4096 + r.val < 4194304 := by omega
  rw [Cert.Energy.triNat_of_lt _ _ _ _ hlt]
  exact row_of_block m c t r ⟨_, hlt⟩ rfl

end Cert.KernelIdeal.Blocks

end
-- ==== Proof.LibTileSums3.lean ====
/- Splitting a finite sum over a product-sized index range into three nested sums (halves, tiles, rows within a
   tile), over any commutative additive monoid. Nothing here evaluates a large sum: the index range is only
   re-indexed along the canonical equivalence between a product of finite ranges and the range of the product. -/
import Mathlib

open scoped BigOperators

namespace Cert.Lib

variable {M : Type*} [AddCommMonoid M]

/-- The mixed-radix index (a, b, r) ↦ (a·B + b)·C + r lies below A·B·C. -/
theorem idx3_lt {A B C : ℕ} (a : Fin A) (b : Fin B) (r : Fin C) :
    (a.val * B + b.val) * C + r.val < A * B * C := by
  have h1 : a.val * B + b.val + 1 ≤ A * B := by
    calc a.val * B + b.val + 1 ≤ a.val * B + B := by have := b.isLt; omega
      _ = (a.val + 1) * B := by ring
      _ ≤ A * B := Nat.mul_le_mul_right _ a.isLt
  calc (a.val * B + b.val) * C + r.val < (a.val * B + b.val) * C + C := by have := r.isLt; omega
    _ = (a.val * B + b.val + 1) * C := by ring
    _ ≤ A * B * C := Nat.mul_le_mul_right _ h1

/-- A sum over A·B·C consecutive indices is the sum over a < A, b < B, r < C of the term at (a·B + b)·C + r. -/
theorem sum_tiles3 (A B C : ℕ) (f : Fin (A * B * C) → M) :
    ∑ n, f n
      = ∑ a : Fin A, ∑ b : Fin B, ∑ r : Fin C, f ⟨(a.val * B + b.val) * C + r.val, idx3_lt a b r⟩ := by
  rw [← (finProdFinEquiv (m := A * B) (n := C)).sum_comp, Fintype.sum_prod_type]
  rw [← (finProdFinEquiv (m := A) (n := B)).sum_comp, Fintype.sum_prod_type]
  refine Finset.sum_congr rfl fun a _ => Finset.sum_congr rfl fun b _ => Finset.sum_congr rfl fun r _ => ?_
  refine congrArg f (Fin.ext ?_)
  simp only [finProdFinEquiv_apply_val]
  ring

/-- 1048576 = 2·32·16384: a sum over 1048576 indices as 2 halves of 32 tiles of 16384 rows. -/
theorem sum_2_32_16384 (f : Fin 1048576 → M) :
    ∑ n, f n
      = ∑ a : Fin 2, ∑ b : Fin 32, ∑ r : Fin 16384,
          f ⟨a.val * 524288 + b.val * 16384 + r.val, by omega⟩ := by
  refine (sum_tiles3 (M := M) 2 32 16384 f).trans ?_
  refine Finset.sum_congr rfl fun a _ => Finset.sum_congr rfl fun b _ => Finset.sum_congr rfl fun r _ => ?_
  refine congrArg f (Fin.ext ?_)
  show (a.val * 32 + b.val) * 16384 + r.val = a.val * 524288 + b.val * 16384 + r.val
  omega

/-- 1048576 = 2·64·8192: a sum over 1048576 indices as 2 halves of 64 tiles of 8192 rows. -/
theorem sum_2_64_8192 (f : Fin 1048576 → M) :
    ∑ n, f n
      = ∑ a : Fin 2, ∑ b : Fin 64, ∑ r : Fin 8192,
          f ⟨a.val * 524288 + b.val * 8192 + r.val, by omega⟩ := by
  refine (sum_tiles3 (M := M) 2 64 8192 f).trans ?_
  refine Finset.sum_congr rfl fun a _ => Finset.sum_congr rfl fun b _ => Finset.sum_congr rfl fun r _ => ?_
  refine congrArg f (Fin.ext ?_)
  show (a.val * 64 + b.val) * 8192 + r.val = a.val * 524288 + b.val * 8192 + r.val
  omega

end Cert.Lib
-- ==== Proof.Sums.lean ====
/-
  Regrouping the loss. The 4194304 triangles are 2 halves of 512 tiles of 4096 triangles, triangle
  (p·512 + s)·4096 + r being row r of tile s of half p. A sum over all triangles is therefore the sum over the
  halves of the sums over their tiles of the tiles' sums — addition of extended reals is commutative and
  associative, so this needs nothing of the summands.
-/
import proofs.«133909_j69681549410630_2_alg».proof.Proof.Energy
import proofs.«133909_j69681549410630_2_alg».proof.Proof.LibTileSums3
import Idealize.ShloMosaic.Lib.ValueIdx

noncomputable section

open scoped BigOperators

namespace Cert.Energy

open Idealize.ShloMosaic Idealize.ShloMosaic.ValueIdx

/-- An index of a vector is its one coordinate. -/
def vecIdxEquiv {n : Nat} : (⟨1, ![n]⟩ : Shape).Idx ≃ Fin n where
  toFun i := i 0
  invFun p := ix1 p
  left_inv i := (eq_ix1 i).symm
  right_inv _ := rfl

/-- So a sum over the indices of a vector is the sum over its coordinate. -/
theorem sum_vecIdx {M : Type*} [AddCommMonoid M] {n : Nat} (f : (⟨1, ![n]⟩ : Shape).Idx → M) :
    ∑ i, f i = ∑ p : Fin n, f (ix1 p) :=
  (Equiv.sum_comp (vecIdxEquiv (n := n)).symm f).symm

/-- The tiles' sums, added up half by half, are the sum over all triangles. -/
theorem sum_halves (y : (⟨3, ![4194304, 3, 2]⟩ : Shape).Idx → EReal) (A : (⟨3, ![4194304, 2, 2]⟩ : Shape).Idx → EReal)
    (a : (⟨1, ![4194304]⟩ : Shape).Idx → EReal) :
    ∑ p : Fin 2, ∑ s : Fin 512, tile y A a (p.val * 512 + s.val) = ∑ t : Fin 4194304, tri y A a t := by
  have h := Cert.Lib.sum_tiles3 (M := EReal) 2 512 4096 (fun n => triNat y A a n.val)
  refine Eq.trans ?_ (h.symm.trans ?_)
  · rfl
  · show ∑ n : Fin 4194304, triNat y A a n.val = _
    exact Finset.sum_congr rfl fun t _ => triNat_of_lt y A a t.val t.isLt

/-- A half's running total after its step `k`: the sum of its tiles 0, …, k. At the half's last step it is the sum of
    all its 512 tiles. -/
theorem sum_range_512 (f : ℕ → EReal) : ∑ s ∈ Finset.range 512, f s = ∑ s : Fin 512, f s.val :=
  Finset.sum_range f

end Cert.Energy

end
-- ==== Proof.Running.lean ====
/-
  The running contents in closed form. Within a half, the result's staging buffer after step k holds, on every
  lane, the sum of the half's tiles 0, …, k: at a first step zero plus the tile's sum, at a later step what the
  step before left plus the tile's sum. Stated for a point n of the grid: the sum over s ≤ n mod 512 of the sums of
  tiles (n − n mod 512) + s. By induction on the point.
-/
import proofs.«133909_j69681549410630_2_alg».proof.Proof.FrameKI.Left
import proofs.«133909_j69681549410630_2_alg».proof.Proof.Blocks
import proofs.«133909_j69681549410630_2_alg».proof.Proof.Sums
import Idealize.ShloMosaic.PureOps.Ideal.Laws

set_option maxRecDepth 16384

noncomputable section

open scoped BigOperators

namespace Cert.KernelIdeal.Running

open Idealize.ShloMosaic Idealize.ShloMosaic.TcCoe Idealize.SL.Sem Idealize.ShloMosaic.ValueIdx
open Cert.KernelIdeal Cert.KernelIdeal.Gen Cert.KernelIdeal.Around Cert.KernelIdeal.Blocks

section AnyValues

variable {F : FTy → Type} [FloatOps F]
variable (m : (ℓ : Loc nD τ sig) → Buf (Elt F) ℓ)

/-- Point 0: the zeroes plus the block's sum, on every lane. -/
theorem leftAt_zero (c : Dev nD) (h : 0 < cfg0.N) :
    leftAt m c 0 h = k0_pay1 (k0_pay3 (iblk m c 0 ⟨0, h⟩)) (k0_pay2 (F := F)) :=
  (leftAt_first m c ⟨0, h⟩ rfl).trans (leftFirst_eq ..)

/-- A later point that starts a half: the same. -/
theorem leftAt_succ_first (c : Dev nD) (n : ℕ) (h : n + 1 < cfg0.N) (h0 : (n + 1) % 512 = 0) :
    leftAt m c (n + 1) h = k0_pay1 (k0_pay3 (iblk m c 0 ⟨n + 1, h⟩)) (k0_pay2 (F := F)) :=
  (leftAt_first m c ⟨n + 1, h⟩ h0).trans (leftFirst_eq ..)

/-- Any other point: what the point before left plus the block's sum, on every lane. -/
theorem leftAt_succ_later (c : Dev nD) (n : ℕ) (h : n + 1 < cfg0.N) (h0 : ¬(n + 1) % 512 = 0) :
    leftAt m c (n + 1) h = k0_pay1 (k0_pay3 (iblk m c 0 ⟨n + 1, h⟩)) (leftAt m c n (Nat.lt_of_succ_lt h)) :=
  (leftAt_later m c ⟨n + 1, h⟩ h0).trans (leftLater_eq ..)

end AnyValues

variable (m : (ℓ : Loc nD τ sig) → Buf (Elt Ideal) ℓ)

/-- After point `n` every lane holds the sum of the tiles of `n`'s half up to `n`. -/
theorem leftAt_apply (c : Dev nD) : ∀ (n : ℕ) (h : n < cfg0.N) (j : S1x8x128.Idx),
    leftAt m c n h j = ∑ s ∈ Finset.range (n % 512 + 1),
      Cert.Energy.tile (m ((c.tc : Thread nD τ).loc main_arg0)) (m ((c.tc : Thread nD τ).loc main_arg1)) (m ((c.tc : Thread nD τ).loc main_arg2)) (n - n % 512 + s)
  | 0, h, j => by
    rw [leftAt_zero m c h, Cert.KernelIdeal.Step.step_apply, Cert.KernelIdeal.Step.zeroes_apply, blockSum_tile m c ⟨0, h⟩]
    show Cert.Energy.zero + Cert.Energy.tile _ _ _ 0 = ∑ s ∈ Finset.range 1, Cert.Energy.tile _ _ _ (0 + s)
    rw [Finset.sum_range_one, show Cert.Energy.zero = (0 : EReal) from Ideal.ofBits_zero_f32, zero_add]
  | n + 1, h, j => by
    by_cases h0 : (n + 1) % 512 = 0
    · rw [leftAt_succ_first m c n h h0, Cert.KernelIdeal.Step.step_apply, Cert.KernelIdeal.Step.zeroes_apply, blockSum_tile m c ⟨n + 1, h⟩, h0]
      show Cert.Energy.zero + Cert.Energy.tile _ _ _ (n + 1) = ∑ s ∈ Finset.range 1, Cert.Energy.tile _ _ _ (n + 1 - 0 + s)
      rw [Finset.sum_range_one, show Cert.Energy.zero = (0 : EReal) from Ideal.ofBits_zero_f32, zero_add]
      rfl
    · rw [leftAt_succ_later m c n h h0, Cert.KernelIdeal.Step.step_apply, blockSum_tile m c ⟨n + 1, h⟩, leftAt_apply c n _ j]
      have e1 : (n + 1) % 512 = n % 512 + 1 := by omega
      have e2 : n + 1 - (n % 512 + 1) = n - n % 512 := by omega
      have e3 : n - n % 512 + (n % 512 + 1) = n + 1 := by omega
      rw [e1, e2, Finset.sum_range_succ _ (n % 512 + 1), e3]

end Cert.KernelIdeal.Running

end
-- ==== Proof.Result.lean ====
/-
  The kernel's result. The result's window is block p of the [2, 8, 128] array for every step of half p, and is
  written back once per half, after the half's last step; by then every lane of the buffer holds the sum of the
  half's 512 tiles. The two write-backs cover the array, so entry (p, ·, ·) of it ends at half p's sum. The four
  host lines after the region take lane (0, 0) of each half, and add the two numbers to zero: zero plus the sum of
  the halves' sums, which is zero plus the sum over all triangles.
-/
import proofs.«133909_j69681549410630_2_alg».proof.Proof.Running
import Idealize.ShloMosaic.Lib.Pipeline.Value
import Idealize.ShloMosaic.Lib.StableHlo.Run

set_option maxRecDepth 16384

noncomputable section

open scoped BigOperators

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Around Cert.KernelIdeal.Blocks Cert.KernelIdeal.Running

/-- The [2, 8, 128] array of the halves' sums: entry (p, ·, ·) is the sum of the 512 tiles of half p. -/
def halves (y : S4194304x3x2.Idx → EReal) (A : S4194304x2x2.Idx → EReal) (a : S4194304.Idx → EReal) : S2x8x128.Idx → EReal :=
  fun i => ∑ s : Fin 512, Cert.Energy.tile y A a ((i 0).val * 512 + s.val)

variable (m : (ℓ : Loc nD τ sig) → Buf (Elt Ideal) ℓ)

/-- The result's window at point `t` is block (t / 512, 0, 0) — decided over the 1024 points. -/
theorem out_index : ∀ t : Fin cfg0.N, win0_1.index t 0 = t.val / 512 ∧ win0_1.index t 1 = 0 ∧ win0_1.index t 2 = 0 :=
  (by decide +kernel : ∀ t : Fin grid0.N, win0_1.index t 0 = t.val / 512 ∧ win0_1.index t 1 = 0 ∧ win0_1.index t 2 = 0)

/-- What a write-back writes: at a half's last step every lane holds the half's sum, which is that block of `halves`. -/
theorem flushed_eq (c : Dev nD) (t : Fin cfg0.N) (hf : (cfg0.win 1).flush t = true) :
    (dats m 0 c).flushed 1 t = ((cfg0.win 1).blk t).view.read (Elt Ideal)
      (halves (m ((c.tc : Thread nD τ).loc main_arg0)) (m ((c.tc : Thread nD τ).loc main_arg1)) (m ((c.tc : Thread nD τ).loc main_arg2))) := by
  have h511 : t.val % 512 = 511 := (flush0_1 t).mp hf
  show (cfg0.win 1).cut (grid0.coords t) ((dats m 0 c).after 1 t) = _
  rw [after_out]
  funext j
  rw [View.read_apply]
  refine (leftAt_apply m c t.val t.isLt j).trans ?_
  unfold halves
  have e : ((((cfg0.win 1).blk t).view.emb j) 0).val = t.val / 512 := by
    show win0_1.index t 0 * 1 + 1 * (j 0).val = t.val / 512
    have hj : (j 0).val < 1 := (j 0).isLt
    rw [(out_index t).1]; omega
  rw [e, h511]
  show ∑ s ∈ Finset.range 512, _ = _
  rw [Cert.Energy.sum_range_512]
  exact Finset.sum_congr rfl fun s _ => congrArg _ (by omega)

/-- An index of the array is in point `t`'s block iff each coordinate is in the block's range on its axis. -/
theorem mem_blk (t : Fin cfg0.N) (i : S2x8x128.Idx) :
    i ∈ ((cfg0.win 1).blk t).view.set ↔ ∀ a : Fin 3, win0_1.index t a * S1x8x128.size a ≤ (i a).val ∧ (i a).val < win0_1.index t a * S1x8x128.size a + S1x8x128.size a := by
  show i ∈ ((View.whole main_v4).slice (win0_1.rect t)).set ↔ _
  rw [View.set_slice_whole, Rect.mem_set_unit]
  exact Iff.rfl

/-- The two write-backs cover the array: entry (p, ·, ·) is in the block written back after step 511 of half p. -/
theorem covered (i : S2x8x128.Idx) : ∃ t : Fin cfg0.N, (cfg0.win 1).flush t = true ∧ i ∈ ((cfg0.win 1).blk t).view.set := by
  have h0 : (i 0).val < 2 := (i 0).isLt
  have h1 : (i 1).val < 8 := (i 1).isLt
  have h2 : (i 2).val < 128 := (i 2).isLt
  have hN : cfg0.N = 1024 := N_0
  refine ⟨⟨(i 0).val * 512 + 511, by omega⟩, (flush0_1 _).mpr (by show ((i 0).val * 512 + 511) % 512 = 511; omega), ?_⟩
  rw [mem_blk]
  obtain ⟨e0, e1, e2⟩ := out_index ⟨(i 0).val * 512 + 511, by omega⟩
  intro a
  match a with
  | ⟨0, _⟩ => show win0_1.index _ 0 * 1 ≤ (i 0).val ∧ (i 0).val < win0_1.index _ 0 * 1 + 1; rw [e0]; show ((i 0).val * 512 + 511) / 512 * 1 ≤ (i 0).val ∧ (i 0).val < ((i 0).val * 512 + 511) / 512 * 1 + 1; omega
  | ⟨1, _⟩ => show win0_1.index _ 1 * 8 ≤ (i 1).val ∧ (i 1).val < win0_1.index _ 1 * 8 + 8; rw [e1]; omega
  | ⟨2, _⟩ => show win0_1.index _ 2 * 128 ≤ (i 2).val ∧ (i 2).val < win0_1.index _ 2 * 128 + 128; rw [e2]; omega

/-- The result's array after the region: the halves' sums. -/
theorem result_array (c : Dev nD) : (dats m 0 c).arrAt 1 cfg0.N
    = halves (m ((c.tc : Thread nD τ).loc main_arg0)) (m ((c.tc : Thread nD τ).loc main_arg1)) (m ((c.tc : Thread nD τ).loc main_arg2)) :=
  (dats m 0 c).arrAt_eq_of_cover 1 _ (flushed_eq m c) covered

/-- Lane (0, 0) of each half, as a vector of two numbers, at `p`: half p's sum. -/
theorem lane_apply (H : S2x8x128.Idx → EReal) (p : Fin 2) :
    shapeCast S2 (extractStridedSlice S2x1x1 ![0, 0, 0] H slices_S2x8x128_S2x1x1_0_0_0) shapeCasts_S2x1x1_S2 (ix1 p)
      = H (ix3 p (0 : Fin 8) (0 : Fin 128)) := by
  refine (shapeCast_apply _ shapeCasts_S2x1x1_S2 _ (ix3 p (0 : Fin 1) (0 : Fin 1)) (by
    rw [Shape.rowMajor_val_three, Shape.rowMajor_val_one]
    show (p.val * 1 + 0) * 1 + 0 = p.val; omega)).trans ?_
  exact extractStridedSlice_apply _ H _ _ (ix3 p (0 : Fin 8) (0 : Fin 128)) (fun ax => by
    match ax with
    | ⟨0, _⟩ => exact (Nat.zero_add _).symm
    | ⟨1, _⟩ => rfl
    | ⟨2, _⟩ => rfl)

/-- What the result buffer holds after the four host lines that follow the region: the loss. -/
theorem exit_result (c : Dev nD) :
    Pipeline.afterTail₀ cfgs (dats m) 0 (V0 m) [hostOps1] c main_v7
      = fun _ => Cert.Energy.total (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v7) = _
  after_results
  rw [Pipeline.withArrays_arr spec0 launch0.win.arr_inj c _ _ 1]
  show Host.reduceAdd (F := Ideal) (shapeCast S2 (extractStridedSlice S2x1x1 ![0, 0, 0] ((dats m 0 c).arrAt 1 cfg0.N) slices_S2x8x128_S2x1x1_0_0_0) shapeCasts_S2x1x1_S2)
    (constant (F := Ideal) S_ .f32 0x00000000#32) reducesTo_S2_S_d0 h_S_ = _
  rw [result_array m c]
  funext i
  simp only [Host.reduceAdd, Ideal.hostReduceAdd_def]
  rw [Ideal.hostReduceAdd_total reducesTo_S2_S_d0 (fun b => b.elim0) _ _ i, Cert.Energy.sum_vecIdx]
  unfold Cert.Energy.total
  refine congrArg (Cert.Energy.zero + ·) ?_
  refine Eq.trans (Finset.sum_congr rfl fun p _ => lane_apply _ p) ?_
  exact Cert.Energy.sum_halves _ _ _

end Cert.KernelIdeal.Result

end
-- ==== Proof.RefTotal.lean ====
/-
  The reference, read at a triangle. It slices the three vertices out of the vertex array, subtracts the first
  from the other two, sets the two edges side by side as the columns of a 2 × 2 matrix, multiplies it by the
  inverse rest-pose edge matrix (a batched product over the triangles: entry (i, k) is the two-term sum over the
  shared index), squares and adds the four entries from zero, takes the determinant from the four entries, and
  multiplies weight, norm and 1 + 1 / det² — the energy of the triangle, with the four squares added from zero and
  grouped two by two. The result is those energies added from zero over all triangles: the total.
-/
import proofs.«133909_j69681549410630_2_alg».proof.Proof.Gen.ReferenceIdeal.Read
import proofs.«133909_j69681549410630_2_alg».proof.Proof.Energy
import proofs.«133909_j69681549410630_2_alg».proof.Proof.Sums
import Idealize.ShloMosaic.Lib.Pipeline.Value
import Idealize.ShloMosaic.Lib.ValueIdx
import Idealize.ShloMosaic.PureOps.Ideal.Laws

set_option maxRecDepth 16384

noncomputable section

open scoped BigOperators

namespace Cert.RefTotal

open Cert.ReferenceIdeal Cert.ReferenceIdeal.Gen Cert.ReferenceIdeal.Read Idealize.ShloMosaic Idealize.ShloMosaic.ValueIdx

variable (y : S4194304x3x2.Idx → EReal) (A : S4194304x2x2.Idx → EReal) (a : S4194304.Idx → EReal)

/-! ## The edges -/

/-- Vertex 0 of triangle `t`, as the reference slices and flattens it: coordinate `i`. -/
theorem vertex0 (t : Fin 4194304) (i : Fin 2) : val_main_v1 (F := Ideal) y (ix2 t i) = y (ix3 t (0 : Fin 3) i) := by
  rw [val_main_v1_apply, val_main_v0_apply]
  refine congrArg y (funext fun a => Fin.ext ?_)
  have hi := i.isLt
  match a with
  | ⟨0, _⟩ => show (t.val * 2 + i.val) / 2 = t.val; omega
  | ⟨1, _⟩ => rfl
  | ⟨2, _⟩ => show (t.val * 2 + i.val) % 2 = i.val; omega

/-- Vertex 1 of triangle `t`, as the reference slices and flattens it: coordinate `i`. -/
theorem vertex1 (t : Fin 4194304) (i : Fin 2) : val_main_v3 (F := Ideal) y (ix2 t i) = y (ix3 t (1 : Fin 3) i) := by
  rw [val_main_v3_apply, val_main_v2_apply]
  refine congrArg y (funext fun a => Fin.ext ?_)
  have hi := i.isLt
  match a with
  | ⟨0, _⟩ => show (t.val * 2 + i.val) / 2 = t.val; omega
  | ⟨1, _⟩ => rfl
  | ⟨2, _⟩ => show (t.val * 2 + i.val) % 2 = i.val; omega

/-- Vertex 2 of triangle `t`, as the reference slices and flattens it: coordinate `i`. -/
theorem vertex2 (t : Fin 4194304) (i : Fin 2) : val_main_v6 (F := Ideal) y (ix2 t i) = y (ix3 t (2 : Fin 3) i) := by
  rw [val_main_v6_apply, val_main_v5_apply]
  refine congrArg y (funext fun a => Fin.ext ?_)
  have hi := i.isLt
  match a with
  | ⟨0, _⟩ => show (t.val * 2 + i.val) / 2 = t.val; omega
  | ⟨1, _⟩ => rfl
  | ⟨2, _⟩ => show (t.val * 2 + i.val) % 2 = i.val; omega

/-- The first edge of triangle `t`: vertex 1 minus vertex 0, coordinate `i`. -/
theorem edge1 (t : Fin 4194304) (i : Fin 2) :
    val_main_v4 (F := Ideal) y (ix2 t i) = y (ix3 t (1 : Fin 3) i) - y (ix3 t (0 : Fin 3) i) := by
  rw [val_main_v4_apply, vertex1, vertex0]; rfl

/-- The second edge: vertex 2 minus vertex 0. -/
theorem edge2 (t : Fin 4194304) (i : Fin 2) :
    val_main_v7 (F := Ideal) y (ix2 t i) = y (ix3 t (2 : Fin 3) i) - y (ix3 t (0 : Fin 3) i) := by
  rw [val_main_v7_apply, vertex2, vertex0]; rfl

/-- The edge matrix: column 0 is the first edge, -/
theorem edges_col0 (t : Fin 4194304) (i : Fin 2) :
    val_main_v10 (F := Ideal) y (ix3 t i (0 : Fin 2)) = y (ix3 t (1 : Fin 3) i) - y (ix3 t (0 : Fin 3) i) := by
  unfold val_main_v10
  refine (concatenate_pair_apply_left (s₁ := S4194304x2x1) (s₂ := S4194304x2x1) (2 : Fin S4194304x2x2.rank) _ _ _ (ix3 t i (0 : Fin 2)) rfl (ix3 t i (0 : Fin 1)) (fun b => ?_)).trans ?_
  · match b with
    | ⟨0, _⟩ => rfl
    | ⟨1, _⟩ => rfl
    | ⟨2, _⟩ => rfl
  · rw [val_main_v8_apply]
    refine Eq.trans (congrArg (val_main_v4 (F := Ideal) y) (?_ : idx_main_v8 (ix3 t i (0 : Fin 1)) = ix2 t i)) (edge1 y t i)
    exact funext fun a => Fin.ext (by match a with | ⟨0, _⟩ => rfl | ⟨1, _⟩ => rfl)

/-- and column 1 the second. -/
theorem edges_col1 (t : Fin 4194304) (i : Fin 2) :
    val_main_v10 (F := Ideal) y (ix3 t i (1 : Fin 2)) = y (ix3 t (2 : Fin 3) i) - y (ix3 t (0 : Fin 3) i) := by
  unfold val_main_v10
  refine (concatenate_pair_apply_right (s₁ := S4194304x2x1) (s₂ := S4194304x2x1) (2 : Fin S4194304x2x2.rank) _ _ _ (ix3 t i (1 : Fin 2)) rfl rfl (ix3 t i (0 : Fin 1)) (fun b hb => ?_) rfl).trans ?_
  · match b with
    | ⟨0, _⟩ => rfl
    | ⟨1, _⟩ => rfl
    | ⟨2, _⟩ => exact absurd rfl hb
  · rw [val_main_v9_apply]
    refine Eq.trans (congrArg (val_main_v7 (F := Ideal) y) (?_ : idx_main_v9 (ix3 t i (0 : Fin 1)) = ix2 t i)) (edge2 y t i)
    exact funext fun a => Fin.ext (by match a with | ⟨0, _⟩ => rfl | ⟨1, _⟩ => rfl)

/-! ## The Jacobian -/

/-- Entry (i, k) of the deformation Jacobian of triangle `t`: the two-term product of the edge matrix's row i with
    the inverse edge matrix's column k. -/
theorem jac (t : Fin 4194304) (i k : Fin 2) : val_main_v11 (F := Ideal) y A (ix3 t i k)
    = (y (ix3 t (1 : Fin 3) i) - y (ix3 t (0 : Fin 3) i)) * A (ix3 t (0 : Fin 2) k)
      + (y (ix3 t (2 : Fin 3) i) - y (ix3 t (0 : Fin 3) i)) * A (ix3 t (1 : Fin 2) k) := by
  rw [val_main_v11_apply, Fin.sum_univ_two]
  have l0 : lidx_main_v11 (ix3 t i k) 0 = ix3 t i (0 : Fin 2) := funext fun a => Fin.ext (by match a with | ⟨0, _⟩ => rfl | ⟨1, _⟩ => rfl | ⟨2, _⟩ => rfl)
  have l1 : lidx_main_v11 (ix3 t i k) 1 = ix3 t i (1 : Fin 2) := funext fun a => Fin.ext (by match a with | ⟨0, _⟩ => rfl | ⟨1, _⟩ => rfl | ⟨2, _⟩ => rfl)
  have r0 : ridx_main_v11 (ix3 t i k) 0 = ix3 t (0 : Fin 2) k := funext fun a => Fin.ext (by match a with | ⟨0, _⟩ => rfl | ⟨1, _⟩ => rfl | ⟨2, _⟩ => rfl)
  have r1 : ridx_main_v11 (ix3 t i k) 1 = ix3 t (1 : Fin 2) k := funext fun a => Fin.ext (by match a with | ⟨0, _⟩ => rfl | ⟨1, _⟩ => rfl | ⟨2, _⟩ => rfl)
  rw [l0, l1, r0, r1, edges_col0, edges_col1]

/-! ## The squared norm: a sum over both matrix axes -/

/-- The four entries of triangle `t`'s matrix, as indices of the [T, 2, 2] array. -/
def entryEmb (t : Fin 4194304) : Fin 2 × Fin 2 ↪ S4194304x2x2.Idx :=
  ⟨fun p => ix3 t p.1 p.2, fun p q h => Prod.ext (congrFun h 1) (congrFun h 2)⟩

/-- The indices that reduce to `t` when the two matrix axes are dropped are those four. -/
theorem filter_entries (t : Fin 4194304) :
    Finset.univ.filter (fun i : S4194304x2x2.Idx => reducesTo_S4194304x2x2_S4194304_d1_2.drop i = ix1 t) = Finset.univ.map (entryEmb t) := by
  ext i
  simp only [Finset.mem_filter, Finset.mem_univ, true_and, Finset.mem_map, entryEmb, Function.Embedding.coeFn_mk]
  constructor
  · intro h
    have h0 : (i 0).val = t.val := congrArg Fin.val (congrFun h 0)
    refine ⟨((⟨(i 1).val, (i 1).isLt⟩ : Fin 2), (⟨(i 2).val, (i 2).isLt⟩ : Fin 2)), ?_⟩
    funext b
    match b with
    | ⟨0, _⟩ => exact Fin.ext h0.symm
    | ⟨1, _⟩ => rfl
    | ⟨2, _⟩ => rfl
  · rintro ⟨p, rfl⟩
    funext b
    match b with
    | ⟨0, _⟩ => rfl

/-- The squared norm of triangle `t`'s Jacobian, as the reference sums it: from zero, the four squares. -/
theorem normSq (t : Fin 4194304) : val_main_v13 (F := Ideal) y A (ix1 t)
    = Cert.Energy.zero + (val_main_v12 (F := Ideal) y A (ix3 t (0 : Fin 2) (0 : Fin 2)) + val_main_v12 (F := Ideal) y A (ix3 t (0 : Fin 2) (1 : Fin 2))
        + (val_main_v12 (F := Ideal) y A (ix3 t (1 : Fin 2) (0 : Fin 2)) + val_main_v12 (F := Ideal) y A (ix3 t (1 : Fin 2) (1 : Fin 2)))) := by
  unfold val_main_v13
  generalize val_main_v12 (F := Ideal) y A = z
  simp only [Host.reduceAdd, Ideal.hostReduceAdd_def]
  unfold Ideal.hostReduceAdd
  rw [filter_entries, Finset.sum_map, Fintype.sum_prod_type, Fin.sum_univ_two, Fin.sum_univ_two, Fin.sum_univ_two]
  rfl

/-! ## The determinant's four entries -/

theorem entry00 (t : Fin 4194304) : val_main_v15 (F := Ideal) y A (ix1 t) = val_main_v11 (F := Ideal) y A (ix3 t (0 : Fin 2) (0 : Fin 2)) := by
  rw [val_main_v15_apply, val_main_v14_apply]
  refine congrArg (val_main_v11 (F := Ideal) y A) (funext fun a => Fin.ext ?_)
  match a with
  | ⟨0, _⟩ => show t.val / 1 = t.val; omega
  | ⟨1, _⟩ => rfl
  | ⟨2, _⟩ => rfl

theorem entry11 (t : Fin 4194304) : val_main_v17 (F := Ideal) y A (ix1 t) = val_main_v11 (F := Ideal) y A (ix3 t (1 : Fin 2) (1 : Fin 2)) := by
  rw [val_main_v17_apply, val_main_v16_apply]
  refine congrArg (val_main_v11 (F := Ideal) y A) (funext fun a => Fin.ext ?_)
  match a with
  | ⟨0, _⟩ => show t.val / 1 = t.val; omega
  | ⟨1, _⟩ => rfl
  | ⟨2, _⟩ => rfl

theorem entry01 (t : Fin 4194304) : val_main_v20 (F := Ideal) y A (ix1 t) = val_main_v11 (F := Ideal) y A (ix3 t (0 : Fin 2) (1 : Fin 2)) := by
  rw [val_main_v20_apply, val_main_v19_apply]
  refine congrArg (val_main_v11 (F := Ideal) y A) (funext fun a => Fin.ext ?_)
  match a with
  | ⟨0, _⟩ => show t.val / 1 = t.val; omega
  | ⟨1, _⟩ => rfl
  | ⟨2, _⟩ => rfl

theorem entry10 (t : Fin 4194304) : val_main_v22 (F := Ideal) y A (ix1 t) = val_main_v11 (F := Ideal) y A (ix3 t (1 : Fin 2) (0 : Fin 2)) := by
  rw [val_main_v22_apply, val_main_v21_apply]
  refine congrArg (val_main_v11 (F := Ideal) y A) (funext fun a => Fin.ext ?_)
  match a with
  | ⟨0, _⟩ => show t.val / 1 = t.val; omega
  | ⟨1, _⟩ => rfl
  | ⟨2, _⟩ => rfl

/-! ## One triangle, and all of them -/

/-- The reference's summand at triangle `t` is the triangle's energy. -/
theorem term (t : Fin 4194304) : val_main_v31 (F := Ideal) y A a (ix1 t) = Cert.Energy.tri y A a t := by
  rw [val_main_v31_apply, val_main_v25_apply, val_main_v30_apply, val_main_v29_apply, val_main_cst_1_apply, val_main_v28_apply,
    val_main_v27_apply, val_main_cst_0_apply, val_main_v26_apply, val_main_v24_apply, val_main_v18_apply, val_main_v23_apply,
    entry00, entry11, entry01, entry10, normSq, val_main_v12_apply, val_main_v12_apply, val_main_v12_apply, val_main_v12_apply,
    jac y A t 0 0, jac y A t 0 1, jac y A t 1 0, jac y A t 1 1]
  simp only [Ideal.mulf_def, Ideal.addf_def, Ideal.subf_def, Ideal.hostDivf_def, Ideal.ofBits_def, Ideal.ofBits_zero_f32, zero_add]
  unfold Cert.Energy.tri Cert.Energy.ofTriangle
  simp only [add_assoc]

/-- The reference's result: the total. -/
theorem result_eq : val_main_v32 (F := Ideal) y A a = fun _ => Cert.Energy.total y A a := by
  funext i
  rw [val_main_v32_apply, val_main_cst_2_apply, Cert.Energy.sum_vecIdx]
  unfold Cert.Energy.total
  exact congrArg (Cert.Energy.zero + ·) (Finset.sum_congr rfl fun t _ => term y A a t)

end Cert.RefTotal

end
-- ==== Proof.lean ====
/-
  The symmetric-Dirichlet loss of a triangle mesh, computed by a kernel and by a plain reference, is the same
  extended real. Per triangle both form the 2 × 2 deformation Jacobian J = B · A⁻¹ from the triangle's edges and
  the inverse of its rest-pose edge matrix, and its weighted energy w · ‖J‖² · (1 + 1 / det(J)²); both add the
  energies of the 4194304 triangles from zero. The reference adds them in one sum; the kernel lays the triangles'
  eleven numbers side by side in a table, walks the table in 1024 tiles of 4096 rows, two halves of 512 tiles,
  keeps each half's running total in the result's staging buffer (zeroed at a half's first tile, written back
  after its last), and adds the two halves from zero on the host. Every product, difference and quotient is the
  same expression of the same entries on both sides; only the grouping of the additions differs, and addition
  of extended reals is commutative and associative — so the two results agree whatever the data, and the
  precondition (finite inputs) is never opened.

  The three frames: the kernel's programs run to the end without a fault and leave the three argument arrays as
  launched (the region launched between the host lines around it, the body run once for a first tile of a half
  and once for a later one); the reference's is its run with the result dropped. The idealization rewrote no
  operation, so what it must preserve is nothing.
-/
import proofs.«133909_j69681549410630_2_alg».proof.Defs
import proofs.«133909_j69681549410630_2_alg».proof.Proof.Gen.Kernel
import proofs.«133909_j69681549410630_2_alg».proof.Proof.Gen.KernelIdeal
import proofs.«133909_j69681549410630_2_alg».proof.Proof.Gen.ReferenceIdeal
import proofs.«133909_j69681549410630_2_alg».proof.Proof.Gen.Pre_finite_inputs
import proofs.«133909_j69681549410630_2_alg».proof.Proof.Gen.ReferenceIdeal.Run
import proofs.«133909_j69681549410630_2_alg».proof.Proof.Gen.ReferenceIdeal.Read
import proofs.«133909_j69681549410630_2_alg».proof.Proof.FrameK.Carry
import proofs.«133909_j69681549410630_2_alg».proof.Proof.FrameKI.Carry
import proofs.«133909_j69681549410630_2_alg».proof.Proof.Result
import proofs.«133909_j69681549410630_2_alg».proof.Proof.RefTotal
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Around.frame (F := Bits) m ρ

theorem frame_kernelIdeal : Cert.frame_KernelIdeal := fun m ρ _ => Cert.KernelIdeal.Around.frame (F := Ideal) m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The idealized kernel's run with its result named: the loss of the launched arrays; the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v7)
          = (fun _ => Cert.Energy.total (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
    ⟨((h c).2 Cert.KernelIdeal.main_v7 (Pipeline.mem_restRefs_of Cert.KernelIdeal.main_v7 (by decide) (by decide))).trans
        (Cert.KernelIdeal.Result.exit_result m c),
     ((h c).2 Cert.KernelIdeal.main_arg0 (Pipeline.mem_restRefs_of Cert.KernelIdeal.main_arg0 (by decide) (by decide))).trans
        (Cert.KernelIdeal.Around.exit_arg0 m (Cert.KernelIdeal.Around.dats m) c),
     ((h c).2 Cert.KernelIdeal.main_arg1 (Pipeline.mem_restRefs_of Cert.KernelIdeal.main_arg1 (by decide) (by decide))).trans
        (Cert.KernelIdeal.Around.exit_arg1 m (Cert.KernelIdeal.Around.dats m) c),
     ((h c).2 Cert.KernelIdeal.main_arg2 (Pipeline.mem_restRefs_of Cert.KernelIdeal.main_arg2 (by decide) (by decide))).trans
        (Cert.KernelIdeal.Around.exit_arg2 m (Cert.KernelIdeal.Around.dats m) c)⟩)
    (Cert.KernelIdeal.Around.run_main (F := Ideal) m ρ)

/-- From memories that agree on the three arrays both programs end at the loss of those arrays. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.RefTotal.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
